-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S1600000x3 : Shape := ⟨2, ![1600000, 3]⟩
abbrev S15x128 : Shape := ⟨2, ![15, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1600000 : Shape := ⟨1, ![1600000]⟩
abbrev S100000 : Shape := ⟨1, ![100000]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S1600000x3 : S_.BroadcastsInDim S1600000x3 (![] : Fin 0 → Fin S1600000x3.rank)
  reducesTo_S1600000x3_S_d0_1 : S1600000x3.ReducesTo [0, 1] S_
  bcast_S_S15x128 : S_.BroadcastsInDim S15x128 (![] : Fin 0 → Fin S15x128.rank)
  reducesTo_S15x128_S_d0_1 : S15x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S128 .f32) (main_arg8 : FVec F S128x1 .f32) (main_arg9 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg8
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S128x1 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x6 .f32) (main_arg1 : FVec F S1600000x3 .f32) (main_arg2 : FVec F S15x128 .f32) (main_arg3 : FVec F S128 .f32) (main_arg4 : FVec F S128x128 .f32) (main_arg5 : FVec F S128 .f32) (main_arg6 : FVec F S128x128 .f32) (main_arg7 : FVec F S128 .f32) (main_arg8 : FVec F S128x1 .f32) (main_arg9 : FVec F S1 .f32) (main_arg10 : IVec S1600000 32) (main_arg11 : IVec S1600000 32) (main_arg12 : IVec S100000 32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S1600000x3 .f32 := Host.absf main_arg1
  let main_cst_0 : FVec F S_ .f32 := constant S_ .f32 0x7F800000#32
  let main_v5 : FVec F S1600000x3 .f32 := broadcastInDim S1600000x3 ![] bcast_S_S1600000x3 main_cst_0
  let main_v6 : IVec S1600000x3 1 := cmpf .olt main_v4 main_v5
  let main_c_1 : IVec S_ 1 := constantI S_ 1 1#1
  let main_v7 : IVec S_ 1 := (fun x v => Host.reduce IntOp.andi x v reducesTo_S1600000x3_S_d0_1 h_S_) main_v6 main_c_1
  let main_v8 : IVec S_ 1 := andi main_v3 main_v7
  let main_v9 : FVec F S15x128 .f32 := Host.absf main_arg2
  let main_cst_2 : FVec F S_ .f32 := constant S_ .f32 0x7F800000#32
  let main_v10 : FVec F S15x128 .f32 := broadcastInDim S15x128 ![] bcast_S_S15x128 main_cst_2
  let main_v11 : IVec S15x128 1 := cmpf .olt main_v9 main_v10
  let main_c_3 : IVec S_ 1 := constantI S_ 1 1#1
  let main_v12 : IVec S_ 1 := (fun x v => Host.reduce IntOp.andi x v reducesTo_S15x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S100000x6 : Shape := ⟨2, ![100000, 6]⟩
abbrev S1600000x3 : Shape := ⟨2, ![1600000, 3]⟩
abbrev S15x128 : Shape := ⟨2, ![15, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S1600000x6 : Shape := ⟨2, ![1600000, 6]⟩
abbrev S1600000x15 : Shape := ⟨2, ![1600000, 15]⟩
abbrev S1600000x128 : Shape := ⟨2, ![1600000, 128]⟩
abbrev S32000x15 : Shape := ⟨2, ![32000, 15]⟩
abbrev S32000x128 : Shape := ⟨2, ![32000, 128]⟩
abbrev S1x128 : Shape := ⟨2, ![1, 128]⟩
abbrev S100000x128 : Shape := ⟨2, ![100000, 128]⟩
abbrev S100000x1 : Shape := ⟨2, ![100000, 1]⟩
abbrev S256x128 : Shape := ⟨2, ![256, 128]⟩
abbrev S256 : Shape := ⟨1, ![256]⟩
abbrev S256x1 : Shape := ⟨2, ![256, 1]⟩
abbrev S1x1 : Shape := ⟨2, ![1, 1]⟩

abbrev nBuf : Space → Nat
  | .hbm => 74
  | .vmem => 14
  | .smem => 0
  | _ => 0

abbrev bufTy : (tb : Table) → Fin (tcTables nBuf tb) → BufTy
  | .hbm, ⟨0, _⟩ => ⟨S100000x6, .f32⟩
  | .hbm, ⟨1, _⟩ => ⟨S1600000x3, .f32⟩
  | .hbm, ⟨2, _⟩ => ⟨S15x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1600000, .i32⟩
  | .hbm, ⟨11, _⟩ => ⟨S1600000, .i32⟩
  | .hbm, ⟨12, _⟩ => ⟨S100000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x6, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x6, .f32⟩
  | .hbm, ⟨31, _⟩ => ⟨S1600000x15, .f32⟩
  | .hbm, ⟨32, _⟩ => ⟨S1600000x15, .bf16⟩
  | .hbm, ⟨33, _⟩ => ⟨S15x128, .bf16⟩
  | .hbm, ⟨34, _⟩ => ⟨S128x128, .bf16⟩
  | .hbm, ⟨35, _⟩ => ⟨S1600000x128, .bf16⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S_, .f32⟩
  | .hbm, ⟨42, _⟩ => ⟨S1600000, .f32⟩
  | .hbm, ⟨43, _⟩ => ⟨S_, .f32⟩
  | .hbm, ⟨44, _⟩ => ⟨S100000, .f32⟩
  | .hbm, ⟨45, _⟩ => ⟨S1600000x1, .i32⟩
  | .hbm, ⟨46, _⟩ => ⟨S100000, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S256x128, .f32⟩
  | .hbm, ⟨55, _⟩ => ⟨S100000x1, .i32⟩
  | .hbm, ⟨56, _⟩ => ⟨S256x128, .f32⟩
  | .hbm, ⟨57, _⟩ => ⟨S_, .f32⟩
  | .hbm, ⟨58, _⟩ => ⟨S100000, .f32⟩
  | .hbm, ⟨59, _⟩ => ⟨S_, .f32⟩
  | .hbm, ⟨60, _⟩ => ⟨S256, .f32⟩
  | .hbm, ⟨61, _⟩ => ⟨S100000x1, .i32⟩
  | .hbm, ⟨62, _⟩ => ⟨S256, .f32⟩
  | .hbm, ⟨63, _⟩ => ⟨S_, .f32⟩
  | .hbm, ⟨64, _⟩ => ⟨S256, .f32⟩
  | .hbm, ⟨65, _⟩ => ⟨S256, .f32⟩
  | .hbm, ⟨66, _⟩ => ⟨S256x1, .f32⟩
  | .hbm, ⟨67, _⟩ => ⟨S256x128, .f32⟩
  | .hbm, ⟨68, _⟩ => ⟨S256x128, .f32⟩
  | .hbm, ⟨69, _⟩ => ⟨S256x128, .bf16⟩
  | .hbm, ⟨70, _⟩ => ⟨S128x128, .bf16⟩
  | .hbm, ⟨71, _⟩ => ⟨S128x1, .bf16⟩
  | .hbm, ⟨72, _⟩ => ⟨S256x1, .f32⟩
  | .hbm, ⟨73, _⟩ => ⟨S256, .f32⟩
  | .local _ .vmem, ⟨0, _⟩ => ⟨S32000x15, .bf16⟩
  | .local _ .vmem, ⟨1, _⟩ => ⟨S32000x15, .bf16⟩
  | .local _ .vmem, ⟨2, _⟩ => ⟨S15x128, .bf16⟩
  | .local _ .vmem, ⟨3, _⟩ => ⟨S128, .f32⟩
  | .local _ .vmem, ⟨4, _⟩ => ⟨S128x128, .bf16⟩
  | .local _ .vmem, ⟨5, _⟩ => ⟨S128, .f32⟩
  | .local _ .vmem, ⟨6, _⟩ => ⟨S32000x128, .bf16⟩
  | .local _ .vmem, ⟨7, _⟩ => ⟨S32000x128, .bf16⟩
  | .local _ .vmem, ⟨8, _⟩ => ⟨S256x128, .bf16⟩
  | .local _ .vmem, ⟨9, _⟩ => ⟨S128x128, .bf16⟩
  | .local _ .vmem, ⟨10, _⟩ => ⟨S128, .f32⟩
  | .local _ .vmem, ⟨11, _⟩ => ⟨S128x1, .bf16⟩
  | .local _ .vmem, ⟨12, _⟩ => ⟨S1, .f32⟩
  | .local _ .vmem, ⟨13, _⟩ => ⟨S256x1, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_cst_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32000x15 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S15x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x6_S1600000x6_S1600000x3_S1600000x15_d1 : Shape.Concatenates [S1600000x6, S1600000x6, S1600000x3] S1600000x15 1
  bitsLt_bf16_f32 : FTy.bits .bf16 < FTy.bits .f32
  inb_S32000x15_S32000x15_0_0 : ∀ a, (![0, 0] : Fin 2 → Nat) a + S32000x15.size a ≤ S32000x15.size a
  h_S32000x15 : 0 < S32000x15.numel
  shapeCasts_S32000x15_S32000x15 : S32000x15.ShapeCasts S32000x15
  inb_S15x128_S15x128_0_0 : ∀ a, (![0, 0] : Fin 2 → Nat) a + S15x128.size a ≤ S15x128.size a
  h_S15x128 : 0 < S15x128.numel
  shapeCasts_S15x128_S15x128 : S15x128.ShapeCasts S15x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S32000x128 : S1x128.Broadcasts S32000x128
  inb_S32000x128_S32000x128_0_0 : ∀ a, (![0, 0] : Fin 2 → Nat) a + S32000x128.size a ≤ S32000x128.size a
  h_S32000x128 : 0 < S32000x128.numel
  packedbf16_S32000x128_S32000x128_0_0 : (Rect.unit (s := S32000x128) ![0, 0] S32000x128.size inb_S32000x128_S32000x128_0_0).PackedRows (EltTy.packing .bf16)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S1x128_S256x128 : S1x128.Broadcasts S256x128
  inb_S1_S1_0 : ∀ a, (![0] : Fin 1 → Nat) a + S1.size a ≤ S1.size a
  h_S1 : 0 < S1.numel
  shapeCasts_S1_S1x1 : S1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  shapeCasts_S256x1_S256 : S256x1.ShapeCasts S256
  gather_S100000x6_S1600000x1_S1600000x6_1_0_n_n_0_1_16_wf : GatherDims.WF S100000x6 S1600000x1 S1600000x6 [1] [0] [] [0] [] 1 ![1, 6]
  dot_S32000x15_S15x128_S32000x128_1_0_0_1_n_n_wf : DotDims.WF S32000x15 S15x128 S32000x128 [1] [0] [0] [1] [] []
  dot_S32000x128_S128x128_S32000x128_1_0_0_1_n_n_wf : DotDims.WF S32000x128 S128x128 S32000x128 [1] [0] [0] [1] [] []
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x128_S256x128_1_0_0_1_n_n_wf : DotDims.WF S256x128 S128x128 S256x128 [1] [0] [0] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32000x15.size a ≤ S1600000x15.size a
  hwx0_0 : ∀ i : grid0.Coords, EltTy.bits .bf16 = 32 ∨ (Rect.block (s := S1600000x15) S32000x15.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S15x128.size a ≤ S15x128.size a
  hwx0_1 : ∀ i : grid0.Coords, EltTy.bits .bf16 = 32 ∨ (Rect.block (s := S15x128) S15x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32000x128.size a ≤ S1600000x128.size a
  hwx0_5 : ∀ i : grid0.Coords, EltTy.bits .bf16 = 32 ∨ (Rect.block (s := S1600000x128) S32000x128.size (cc0_transform_5 i) (hinb0_5 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S256x128.size a
  hwx1_0 : ∀ i : grid1.Coords, EltTy.bits .bf16 = 32 ∨ (Rect.block (s := S256x128) S256x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .bf16 = 32 ∨ (Rect.block (s := S128x1) S128x1.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1.size a ≤ S1.size a
  hwx1_4 : ∀ i : grid1.Coords, EltTy.bits .f32 = 32 ∨ (Rect.block (s := S1) S1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S256x1.size a
  hwx1_5 : ∀ i : grid1.Coords, EltTy.bits .f32 = 32 ∨ (Rect.block (s := S256x1) S256x1.size (cc1_transform_5 i) (hinb1_5 i)).WholeWords (EltTy.packing .f32)

variable [Facts₀]

def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def dot_S32000x15_S15x128_S32000x128_1_0_0_1_n_n : DotDims S32000x15 S15x128 S32000x128 where
  lhsContracting := [1]
  rhsContracting := [0]
  lhsNonContracting := [0]
  rhsNonContracting := [1]
  lhsBatch := []
  rhsBatch := []
  wf := dot_S32000x15_S15x128_S32000x128_1_0_0_1_n_n_wf
def dot_S32000x128_S128x128_S32000x128_1_0_0_1_n_n : DotDims S32000x128 S128x128 S32000x128 where
  lhsContracting := [1]
  rhsContracting := [0]
  lhsNonContracting := [0]
  rhsNonContracting := [1]
  lhsBatch := []
  rhsBatch := []
  wf := dot_S32000x128_S128x128_S32000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_v15) S32000x15.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S15x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S32000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S256x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v45) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S256x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x6 : Shape := ⟨2, ![100000, 6]⟩
abbrev S1600000x3 : Shape := ⟨2, ![1600000, 3]⟩
abbrev S15x128 : Shape := ⟨2, ![15, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S1600000x6 : Shape := ⟨2, ![1600000, 6]⟩
abbrev S1600000x15 : Shape := ⟨2, ![1600000, 15]⟩
abbrev S1600000x128 : Shape := ⟨2, ![1600000, 128]⟩
abbrev S1x128 : Shape := ⟨2, ![1, 128]⟩
abbrev S100000x128 : Shape := ⟨2, ![100000, 128]⟩
abbrev S100000x1 : Shape := ⟨2, ![100000, 1]⟩
abbrev S256x128 : Shape := ⟨2, ![256, 128]⟩
abbrev S256 : Shape := ⟨1, ![256]⟩
abbrev S256x1 : Shape := ⟨2, ![256, 1]⟩
abbrev S1x1 : Shape := ⟨2, ![1, 1]⟩

abbrev nBuf : Space → Nat
  | .hbm => 87
  | .vmem => 0
  | .smem => 0
  | _ => 0

abbrev bufTy : (tb : Table) → Fin (tcTables nBuf tb) → BufTy
  | .hbm, ⟨0, _⟩ => ⟨S100000x6, .f32⟩
  | .hbm, ⟨1, _⟩ => ⟨S1600000x3, .f32⟩
  | .hbm, ⟨2, _⟩ => ⟨S15x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1600000, .i32⟩
  | .hbm, ⟨11, _⟩ => ⟨S1600000, .i32⟩
  | .hbm, ⟨12, _⟩ => ⟨S100000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x6, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x6, .f32⟩
  | .hbm, ⟨31, _⟩ => ⟨S1600000x15, .f32⟩
  | .hbm, ⟨32, _⟩ => ⟨S1600000x128, .f32⟩
  | .hbm, ⟨33, _⟩ => ⟨S1x128, .f32⟩
  | .hbm, ⟨34, _⟩ => ⟨S1600000x128, .f32⟩
  | .hbm, ⟨35, _⟩ => ⟨S1600000x128, .f32⟩
  | .hbm, ⟨36, _⟩ => ⟨S_, .f32⟩
  | .hbm, ⟨37, _⟩ => ⟨S1600000x128, .f32⟩
  | .hbm, ⟨38, _⟩ => ⟨S1600000x128, .f32⟩
  | .hbm, ⟨39, _⟩ => ⟨S1600000x128, .f32⟩
  | .hbm, ⟨40, _⟩ => ⟨S1x128, .f32⟩
  | .hbm, ⟨41, _⟩ => ⟨S1600000x128, .f32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S_, .f32⟩
  | .hbm, ⟨48, _⟩ => ⟨S1600000, .f32⟩
  | .hbm, ⟨49, _⟩ => ⟨S_, .f32⟩
  | .hbm, ⟨50, _⟩ => ⟨S100000, .f32⟩
  | .hbm, ⟨51, _⟩ => ⟨S1600000x1, .i32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S100000, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S256x128, .f32⟩
  | .hbm, ⟨61, _⟩ => ⟨S100000x1, .i32⟩
  | .hbm, ⟨62, _⟩ => ⟨S256x128, .f32⟩
  | .hbm, ⟨63, _⟩ => ⟨S_, .f32⟩
  | .hbm, ⟨64, _⟩ => ⟨S100000, .f32⟩
  | .hbm, ⟨65, _⟩ => ⟨S_, .f32⟩
  | .hbm, ⟨66, _⟩ => ⟨S256, .f32⟩
  | .hbm, ⟨67, _⟩ => ⟨S100000x1, .i32⟩
  | .hbm, ⟨68, _⟩ => ⟨S256, .f32⟩
  | .hbm, ⟨69, _⟩ => ⟨S_, .f32⟩
  | .hbm, ⟨70, _⟩ => ⟨S256, .f32⟩
  | .hbm, ⟨71, _⟩ => ⟨S256, .f32⟩
  | .hbm, ⟨72, _⟩ => ⟨S256x1, .f32⟩
  | .hbm, ⟨73, _⟩ => ⟨S256x128, .f32⟩
  | .hbm, ⟨74, _⟩ => ⟨S256x128, .f32⟩
  | .hbm, ⟨75, _⟩ => ⟨S256x128, .f32⟩
  | .hbm, ⟨76, _⟩ => ⟨S1x128, .f32⟩
  | .hbm, ⟨77, _⟩ => ⟨S256x128, .f32⟩
  | .hbm, ⟨78, _⟩ => ⟨S256x128, .f32⟩
  | .hbm, ⟨79, _⟩ => ⟨S_, .f32⟩
  | .hbm, ⟨80, _⟩ => ⟨S256x128, .f32⟩
  | .hbm, ⟨81, _⟩ => ⟨S256x128, .f32⟩
  | .hbm, ⟨82, _⟩ => ⟨S256x1, .f32⟩
  | .hbm, ⟨83, _⟩ => ⟨S1x1, .f32⟩
  | .hbm, ⟨84, _⟩ => ⟨S256x1, .f32⟩
  | .hbm, ⟨85, _⟩ => ⟨S256x1, .f32⟩
  | .hbm, ⟨86, _⟩ => ⟨S256, .f32⟩
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_cst : Ref sig .tc := ⟨.hbm, 36, rfl⟩
abbrev main_call0_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call1_cst : Ref sig .tc := ⟨.hbm, 79, rfl⟩
abbrev main_call1_v0 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x6_S1600000x6_S1600000x3_S1600000x15_d1 : Shape.Concatenates [S1600000x6, S1600000x6, S1600000x3] S1600000x15 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  gather_S100000x6_S1600000x1_S1600000x6_1_0_n_n_0_1_16_wf : GatherDims.WF S100000x6 S1600000x1 S1600000x6 [1] [0] [] [0] [] 1 ![1, 6]
  dot_S1600000x15_S15x128_S1600000x128_1_0_0_1_n_n_wf : DotDims.WF S1600000x15 S15x128 S1600000x128 [1] [0] [0] [1] [] []
  dot_S1600000x128_S128x128_S1600000x128_1_0_0_1_n_n_wf : DotDims.WF S1600000x128 S128x128 S1600000x128 [1] [0] [0] [1] [] []
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x128_S256x128_1_0_0_1_n_n_wf : DotDims.WF S256x128 S128x128 S256x128 [1] [0] [0] [1] [] []
  dot_S256x128_S128x1_S256x1_1_0_0_1_n_n_wf : DotDims.WF S256x128 S128x1 S256x1 [1] [0] [0] [1] [] []

variable [Facts₀]

def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def dot_S1600000x15_S15x128_S1600000x128_1_0_0_1_n_n : DotDims S1600000x15 S15x128 S1600000x128 where
  lhsContracting := [1]
  rhsContracting := [0]
  lhsNonContracting := [0]
  rhsNonContracting := [1]
  lhsBatch := []
  rhsBatch := []
  wf := dot_S1600000x15_S15x128_S1600000x128_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.KRegion0.lean ====
/-
  Region 0 of the program: the edge perceptron on one tile of 32000 edges. Its body reads each of its five operand blocks whole, computes
  one value from them and stores it over the whole output block; so after the body the output block's buffer holds that
  value of the operand blocks, and every operand buffer holds what it held. From this: what the windows' buffers hold
  after the body at each grid point, as a function of the arrays the region is entered with, and the body's
  obligation to the pipeline at every point.
-/
import proofs.«122574_j16913581212025_1_alg».proof.Proof.Gen.Kernel.Launch
import proofs.«122574_j16913581212025_1_alg».proof.Proof.Gen.Kernel.Skeleton
import proofs.«122574_j16913581212025_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter, instantiated by the run
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand window's buffer holds its block at every point, whether or not the block was fetched there: an unfetched
    block has not moved, and the body leaves operand buffers as it finds them. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An operand window's buffer holds its block at every point, whether or not the block was fetched there: an unfetched
    block has not moved, and the body leaves operand buffers as it finds them. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An operand window's buffer holds its block at every point, whether or not the block was fetched there: an unfetched
    block has not moved, and the body leaves operand buffers as it finds them. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An operand window's buffer holds its block at every point, whether or not the block was fetched there: an unfetched
    block has not moved, and the body leaves operand buffers as it finds them. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An operand window's buffer holds its block at every point, whether or not the block was fetched there: an unfetched
    block has not moved, and the body leaves operand buffers as it finds them. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each one the whole of its buffer -/

abbrev r0_0 : Rect S32000x15 := Rect.unit (s := S32000x15) ![0, 0] S32000x15.size inb_S32000x15_S32000x15_0_0
abbrev r0_1 : Rect S15x128 := Rect.unit (s := S15x128) ![0, 0] S15x128.size inb_S15x128_S15x128_0_0
abbrev r0_2 : Rect S128 := Rect.unit (s := S128) ![0] S128.size inb_S128_S128_0
abbrev r0_3 : Rect S128x128 := Rect.unit (s := S128x128) ![0, 0] S128x128.size inb_S128x128_S128x128_0_0
abbrev r0_4 : Rect S128 := Rect.unit (s := S128) ![0] S128.size inb_S128_S128_0
abbrev r0_5 : Rect S32000x128 := Rect.unit (s := S32000x128) ![0, 0] S32000x128.size inb_S32000x128_S32000x128_0_0

/-- The output buffer after the body, from the operand blocks: one store over the whole block. -/
def out0_5 (x0 : Vec F S32000x15 .bf16) (x1 : Vec F S15x128 .bf16) (x2 : Vec F S128 .f32) (x3 : Vec F S128x128 .bf16) (x4 : Vec F S128 .f32) : Vec F S32000x128 .bf16 :=
  View.canon [⟨r0_5, k0_pay1 (View.ld x0 r0_0) (View.ld x1 r0_1) (View.ld x3 r0_3) (View.ld x2 r0_2) (View.ld x4 r0_4)⟩]

/-- The one store covers the buffer. -/
theorem cover0_5 (p0 : Vec F S32000x128 .bf16) (y : S32000x128.Idx) :
    ∃ pc ∈ ([⟨r0_5, p0⟩] : List (View.Piece (Elt F) S32000x128 .bf16)), y ∈ pc.1.set :=
  View.cover_of_tiled [⟨r0_5, p0⟩] S32000x128.size (by rfl) y

set_option maxHeartbeats 4000000 in
/-- The body on whole buffers: the operands' at contents `x0 … x4`, the output's at anything; it ends with the operands'
    as they were and the output's at `out0_5` of them. -/
theorem sound_kernel0 (c : Dev nD) (E : Set ℕ) (i : grid0.Coords) (arg1 : Memref sig .tc .vmem S32000x15 .bf16) (harg1 : arg1.IsWhole) (arg2 : Memref sig .tc .vmem S15x128 .bf16) (harg2 : arg2.IsWhole) (arg3 : Memref sig .tc .vmem S128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S32000x128 .bf16) (harg6 : arg6.IsWhole)
    (x0 : Vec F S32000x15 .bf16) (x1 : Vec F S15x128 .bf16) (x2 : Vec F S128 .f32) (x3 : Vec F S128x128 .bf16) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__edge_mlp_kernel i arg1 harg1 arg2 harg2 arg3 harg3 arg4 harg4 arg5 harg5 arg6 harg6) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## What the pipeline is told the buffers hold -/

/-- The pipeline's data for this region on core `c`: the arrays as the region finds them; after the body at point `t`
    each operand's buffer at its block and the output's at `out0_5` of the operand blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body's obligation at a grid point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 2000000 in
/-- The body at any point: the operands' buffers hold their blocks, so the body's triple applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  Region 1 of the program: the readout perceptron on all 256 graphs. Its body reads each of its five operand blocks whole, computes
  one value from them and stores it over the whole output block; so after the body the output block's buffer holds that
  value of the operand blocks, and every operand buffer holds what it held. From this: what the windows' buffers hold
  after the body at each grid point, as a function of the arrays the region is entered with, and the body's
  obligation to the pipeline at every point.
-/
import proofs.«122574_j16913581212025_1_alg».proof.Proof.Gen.Kernel.Launch
import proofs.«122574_j16913581212025_1_alg».proof.Proof.Gen.Kernel.Skeleton
import proofs.«122574_j16913581212025_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter, instantiated by the run
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand window's buffer holds its block at every point, whether or not the block was fetched there: an unfetched
    block has not moved, and the body leaves operand buffers as it finds them. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An operand window's buffer holds its block at every point, whether or not the block was fetched there: an unfetched
    block has not moved, and the body leaves operand buffers as it finds them. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An operand window's buffer holds its block at every point, whether or not the block was fetched there: an unfetched
    block has not moved, and the body leaves operand buffers as it finds them. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An operand window's buffer holds its block at every point, whether or not the block was fetched there: an unfetched
    block has not moved, and the body leaves operand buffers as it finds them. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An operand window's buffer holds its block at every point, whether or not the block was fetched there: an unfetched
    block has not moved, and the body leaves operand buffers as it finds them. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each one the whole of its buffer -/

abbrev r1_0 : Rect S256x128 := Rect.unit (s := S256x128) ![0, 0] S256x128.size inb_S256x128_S256x128_0_0
abbrev r1_1 : Rect S128x128 := Rect.unit (s := S128x128) ![0, 0] S128x128.size inb_S128x128_S128x128_0_0
abbrev r1_2 : Rect S128 := Rect.unit (s := S128) ![0] S128.size inb_S128_S128_0
abbrev r1_3 : Rect S128x1 := Rect.unit (s := S128x1) ![0, 0] S128x1.size inb_S128x1_S128x1_0_0
abbrev r1_4 : Rect S1 := Rect.unit (s := S1) ![0] S1.size inb_S1_S1_0
abbrev r1_5 : Rect S256x1 := Rect.unit (s := S256x1) ![0, 0] S256x1.size inb_S256x1_S256x1_0_0

/-- The output buffer after the body, from the operand blocks: one store over the whole block. -/
def out1_5 (x0 : Vec F S256x128 .bf16) (x1 : Vec F S128x128 .bf16) (x2 : Vec F S128 .f32) (x3 : Vec F S128x1 .bf16) (x4 : Vec F S1 .f32) : Vec F S256x1 .f32 :=
  View.canon [⟨r1_5, k1_pay1 (View.ld x0 r1_0) (View.ld x1 r1_1) (View.ld x3 r1_3) (View.ld x2 r1_2) (View.ld x4 r1_4)⟩]

/-- The one store covers the buffer. -/
theorem cover1_5 (p0 : Vec F S256x1 .f32) (y : S256x1.Idx) :
    ∃ pc ∈ ([⟨r1_5, p0⟩] : List (View.Piece (Elt F) S256x1 .f32)), y ∈ pc.1.set :=
  View.cover_of_tiled [⟨r1_5, p0⟩] S256x1.size (by rfl) y

set_option maxHeartbeats 4000000 in
/-- The body on whole buffers: the operands' at contents `x0 … x4`, the output's at anything; it ends with the operands'
    as they were and the output's at `out1_5` of them. -/
theorem sound_kernel1 (c : Dev nD) (E : Set ℕ) (i : grid1.Coords) (arg1 : Memref sig .tc .vmem S256x128 .bf16) (harg1 : arg1.IsWhole) (arg2 : Memref sig .tc .vmem S128x128 .bf16) (harg2 : arg2.IsWhole) (arg3 : Memref sig .tc .vmem S128 .f32) (harg3 : arg3.IsWhole) (arg4 : Memref sig .tc .vmem S128x1 .bf16) (harg4 : arg4.IsWhole) (arg5 : Memref sig .tc .vmem S1 .f32) (harg5 : arg5.IsWhole) (arg6 : Memref sig .tc .vmem S256x1 .f32) (harg6 : arg6.IsWhole)
    (x0 : Vec F S256x128 .bf16) (x1 : Vec F S128x128 .bf16) (x2 : Vec F S128 .f32) (x3 : Vec F S128x1 .bf16) (x4 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__readout_kernel i arg1 harg1 arg2 harg2 arg3 harg3 arg4 harg4 arg5 harg5 arg6 harg6) K := by
  simp only [cc1__readout_kernel_eq_skeleton]; unfold cc1__readout_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## What the pipeline is told the buffers hold -/

/-- The pipeline's data for this region on core `c`: the arrays as the region finds them; after the body at point `t`
    each operand's buffer at its block and the output's at `out1_5` of the operand blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body's obligation at a grid point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
/-- The body at any point: the operands' buffers hold their blocks, so the body's triple applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole program's run: host operations, the edge perceptron's region, host operations, the readout
  perceptron's region, one last host operation. The contents of every buffer at each boundary are a fold from the launch
  memory — a stretch of host operations applies them; a region replaces each of its arrays by what the pipeline leaves
  in it (an operand array as entered, the output array at its blocks' write-backs) and touches nothing else. Every
  weakly fair execution terminates with every unscoped buffer at the last fold; the argument arrays walk back through
  the fold to the launch memory, because no host operation writes one and a region only reads them.
-/
import proofs.«122574_j16913581212025_1_alg».proof.Proof.KRegion0
import proofs.«122574_j16913581212025_1_alg».proof.Proof.KRegion1
import proofs.«122574_j16913581212025_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first stretch of host operations: the edge region's entry. -/
abbrev W1 : Dev nD → Valuation τ sig (Elt F) := fun c => StableHlo.after hostOps0 (W0 m ρ c)
abbrev WV1 : (c : Dev nD) → (b : Ref sig .tc) → Buf (Elt F) ((c : Thread nD τ).loc b) := fun c b => W1 m ρ c b
/-- At the edge region's exit. -/
def W2 (c : Dev nD) : Valuation τ sig (Elt F) :=
  Pipeline.withArrays spec0 c (W1 m ρ c) fun w => (dat0 (WV1 m ρ) c).arrAt w cfg0.N
theorem W2_arr (c : Dev nD) (w : Fin cfg0.W) :
    W2 m ρ c (Proc.devRef .tc (Pipeline.arrRef spec0 w)) = (dat0 (WV1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev WV2 : (c : Dev nD) → (b : Ref sig .tc) → Buf (Elt F) ((c : Thread nD τ).loc b) := fun c b => W2 m ρ c b
theorem hF0 (c : Dev nD) (w : Fin cfg0.W) : (dat0 (WV1 m ρ) c).arrAt w cfg0.N = WV2 m ρ c (Pipeline.arrRef spec0 w) :=
  (W2_arr m ρ c w).symm
theorem hrest0 (c : Dev nD) : ∀ b, b ∉ Finset.univ.image (Pipeline.arrRef spec0) → WV2 m ρ c b = WV1 m ρ c b :=
  fun b hb => W2_of_ne m ρ c b fun w e => hb (Finset.mem_image.mpr ⟨w, Finset.mem_univ _, e⟩)

/-- After the second stretch of host operations: the readout region's entry. -/
abbrev W3 : Dev nD → Valuation τ sig (Elt F) := fun c => StableHlo.after hostOps1 (W2 m ρ c)
abbrev WV3 : (c : Dev nD) → (b : Ref sig .tc) → Buf (Elt F) ((c : Thread nD τ).loc b) := fun c b => W3 m ρ c b
/-- At the readout region's exit. -/
def W4 (c : Dev nD) : Valuation τ sig (Elt F) :=
  Pipeline.withArrays spec1 c (W3 m ρ c) fun w => (dat1 (WV3 m ρ) c).arrAt w cfg1.N
theorem W4_arr (c : Dev nD) (w : Fin cfg1.W) :
    W4 m ρ c (Proc.devRef .tc (Pipeline.arrRef spec1 w)) = (dat1 (WV3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev WV4 : (c : Dev nD) → (b : Ref sig .tc) → Buf (Elt F) ((c : Thread nD τ).loc b) := fun c b => W4 m ρ c b
theorem hF1 (c : Dev nD) (w : Fin cfg1.W) : (dat1 (WV3 m ρ) c).arrAt w cfg1.N = WV4 m ρ c (Pipeline.arrRef spec1 w) :=
  (W4_arr m ρ c w).symm
theorem hrest1 (c : Dev nD) : ∀ b, b ∉ Finset.univ.image (Pipeline.arrRef spec1) → WV4 m ρ c b = WV3 m ρ c b :=
  fun b hb => W4_of_ne m ρ c b fun w e => hb (Finset.mem_image.mpr ⟨w, Finset.mem_univ _, e⟩)

/-- After the last host operation: what the program ends with. -/
abbrev W5 : Dev nD → Valuation τ sig (Elt F) := fun c => StableHlo.after hostOps2 (W4 m ρ c)

/-! ## The argument arrays end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 2).trans (((dat0 (WV1 m ρ) c).arrAt_in 2 rfl _).trans (A_eq0 (WV1 m ρ) c 2))
    _ = W0 m ρ c (Proc.devRef .tc main_arg3) := StableHlo.after_of_writes_sub hostOps0 _ hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := (W2_arr m ρ c 4).trans (((dat0 (WV1 m ρ) c).arrAt_in 4 rfl _).trans (A_eq0 (WV1 m ρ) c 4))
    _ = W0 m ρ c (Proc.devRef .tc main_arg5) := StableHlo.after_of_writes_sub hostOps0 _ hostOps0_writes (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := (W4_arr m ρ c 2).trans (((dat1 (WV3 m ρ) c).arrAt_in 2 rfl _).trans (A_eq1 (WV3 m ρ) c 2))
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_writes_sub hostOps2 _ hostOps2_writes (by decide)
    _ = W3 m ρ c (Proc.devRef .tc main_arg9) := (W4_arr m ρ c 4).trans (((dat1 (WV3 m ρ) c).arrAt_in 4 rfl _).trans (A_eq1 (WV3 m ρ) c 4))
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-! ## The thread state and the segments -/

abbrev adm : (p : Fin 2) → (pcfgs (F := F) p).Adm := fun p => (cfgs p).toPCfg_adm
/-- Each pipeline's data at its region's entry contents. -/
def pdats : (p : Fin 2) → (c : Dev nD) → Dat τ (Elt F) Unit ℕ (UR sig nD τ) ℕ (Pipeline.pin (pcfgs (F := F)) adm p) c
  | ⟨0, _⟩ => fun c => dat0 (WV1 m ρ) c
  | ⟨1, _⟩ => fun c => dat1 (WV3 m ρ) c
abbrev 𝒱₀ : Variants := Variants.none
abbrev L : GSem nD τ sig → Finset Unit := fun _ => ∅
abbrev lv : GSem nD τ sig → Unit → ℕ := fun _ _ => 0
/-- What rides beside the buffers: the core's generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

set_option backward.isDefEq.respectTransparency.types false in
/-- Region 0 over the thread state: entered with every unscoped buffer at `W1`, left at `W2`. Its arrays are split out of
    the unscoped buffers and put back at what the pipeline leaves in them; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (WV1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (WV1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (WV1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (WV1 m ρ c) (WV2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left at `W4`. Its arrays are split out of
    the unscoped buffers and put back at what the pipeline leaves in them; the generator register goes into the
    pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (WV3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (WV3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (WV3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (WV3 m ρ c) (WV4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

set_option backward.isDefEq.respectTransparency.types false in
/-- THE RUN. From any memory with zero counters every weakly fair execution of the program terminates, nothing faulting,
    and every final state has every unscoped buffer at the last fold `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c)⟩)
    (run_all m ρ)

end Cert.Kernel.Hand

end
-- ==== Proof.KIRegion0.lean ====
/-
  Region 0 of the program: the edge perceptron on one tile of 32000 edges. Its body reads each of its five operand blocks whole, computes
  one value from them and stores it over the whole output block; so after the body the output block's buffer holds that
  value of the operand blocks, and every operand buffer holds what it held. From this: what the windows' buffers hold
  after the body at each grid point, as a function of the arrays the region is entered with, and the body's
  obligation to the pipeline at every point.
-/
import proofs.«122574_j16913581212025_1_alg».proof.Proof.Gen.KernelIdeal.Launch
import proofs.«122574_j16913581212025_1_alg».proof.Proof.Gen.KernelIdeal.Skeleton
import proofs.«122574_j16913581212025_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter, instantiated by the run
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand window's buffer holds its block at every point, whether or not the block was fetched there: an unfetched
    block has not moved, and the body leaves operand buffers as it finds them. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An operand window's buffer holds its block at every point, whether or not the block was fetched there: an unfetched
    block has not moved, and the body leaves operand buffers as it finds them. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An operand window's buffer holds its block at every point, whether or not the block was fetched there: an unfetched
    block has not moved, and the body leaves operand buffers as it finds them. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An operand window's buffer holds its block at every point, whether or not the block was fetched there: an unfetched
    block has not moved, and the body leaves operand buffers as it finds them. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An operand window's buffer holds its block at every point, whether or not the block was fetched there: an unfetched
    block has not moved, and the body leaves operand buffers as it finds them. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each one the whole of its buffer -/

abbrev r0_0 : Rect S32000x15 := Rect.unit (s := S32000x15) ![0, 0] S32000x15.size inb_S32000x15_S32000x15_0_0
abbrev r0_1 : Rect S15x128 := Rect.unit (s := S15x128) ![0, 0] S15x128.size inb_S15x128_S15x128_0_0
abbrev r0_2 : Rect S128 := Rect.unit (s := S128) ![0] S128.size inb_S128_S128_0
abbrev r0_3 : Rect S128x128 := Rect.unit (s := S128x128) ![0, 0] S128x128.size inb_S128x128_S128x128_0_0
abbrev r0_4 : Rect S128 := Rect.unit (s := S128) ![0] S128.size inb_S128_S128_0
abbrev r0_5 : Rect S32000x128 := Rect.unit (s := S32000x128) ![0, 0] S32000x128.size inb_S32000x128_S32000x128_0_0

/-- The output buffer after the body, from the operand blocks: one store over the whole block. -/
def out0_5 (x0 : Vec F S32000x15 .bf16) (x1 : Vec F S15x128 .bf16) (x2 : Vec F S128 .f32) (x3 : Vec F S128x128 .bf16) (x4 : Vec F S128 .f32) : Vec F S32000x128 .bf16 :=
  View.canon [⟨r0_5, k0_pay1 (View.ld x0 r0_0) (View.ld x1 r0_1) (View.ld x3 r0_3) (View.ld x2 r0_2) (View.ld x4 r0_4)⟩]

/-- The one store covers the buffer. -/
theorem cover0_5 (p0 : Vec F S32000x128 .bf16) (y : S32000x128.Idx) :
    ∃ pc ∈ ([⟨r0_5, p0⟩] : List (View.Piece (Elt F) S32000x128 .bf16)), y ∈ pc.1.set :=
  View.cover_of_tiled [⟨r0_5, p0⟩] S32000x128.size (by rfl) y

set_option maxHeartbeats 4000000 in
/-- The body on whole buffers: the operands' at contents `x0 … x4`, the output's at anything; it ends with the operands'
    as they were and the output's at `out0_5` of them. -/
theorem sound_kernel0 (c : Dev nD) (E : Set ℕ) (i : grid0.Coords) (arg1 : Memref sig .tc .vmem S32000x15 .bf16) (harg1 : arg1.IsWhole) (arg2 : Memref sig .tc .vmem S15x128 .bf16) (harg2 : arg2.IsWhole) (arg3 : Memref sig .tc .vmem S128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S32000x128 .bf16) (harg6 : arg6.IsWhole)
    (x0 : Vec F S32000x15 .bf16) (x1 : Vec F S15x128 .bf16) (x2 : Vec F S128 .f32) (x3 : Vec F S128x128 .bf16) (x4 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__edge_mlp_kernel i arg1 harg1 arg2 harg2 arg3 harg3 arg4 harg4 arg5 harg5 arg6 harg6) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## What the pipeline is told the buffers hold -/

/-- The pipeline's data for this region on core `c`: the arrays as the region finds them; after the body at point `t`
    each operand's buffer at its block and the output's at `out0_5` of the operand blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body's obligation at a grid point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 2000000 in
/-- The body at any point: the operands' buffers hold their blocks, so the body's triple applies; the rest passes through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/-
  Region 1 of the program: the readout perceptron on all 256 graphs. Its body reads each of its five operand blocks whole, computes
  one value from them and stores it over the whole output block; so after the body the output block's buffer holds that
  value of the operand blocks, and every operand buffer holds what it held. From this: what the windows' buffers hold
  after the body at each grid point, as a function of the arrays the region is entered with, and the body's
  obligation to the pipeline at every point.
-/
import proofs.«122574_j16913581212025_1_alg».proof.Proof.Gen.KernelIdeal.Launch
import proofs.«122574_j16913581212025_1_alg».proof.Proof.Gen.KernelIdeal.Skeleton
import proofs.«122574_j16913581212025_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter, instantiated by the run
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand window's buffer holds its block at every point, whether or not the block was fetched there: an unfetched
    block has not moved, and the body leaves operand buffers as it finds them. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An operand window's buffer holds its block at every point, whether or not the block was fetched there: an unfetched
    block has not moved, and the body leaves operand buffers as it finds them. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An operand window's buffer holds its block at every point, whether or not the block was fetched there: an unfetched
    block has not moved, and the body leaves operand buffers as it finds them. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An operand window's buffer holds its block at every point, whether or not the block was fetched there: an unfetched
    block has not moved, and the body leaves operand buffers as it finds them. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An operand window's buffer holds its block at every point, whether or not the block was fetched there: an unfetched
    block has not moved, and the body leaves operand buffers as it finds them. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each one the whole of its buffer -/

abbrev r1_0 : Rect S256x128 := Rect.unit (s := S256x128) ![0, 0] S256x128.size inb_S256x128_S256x128_0_0
abbrev r1_1 : Rect S128x128 := Rect.unit (s := S128x128) ![0, 0] S128x128.size inb_S128x128_S128x128_0_0
abbrev r1_2 : Rect S128 := Rect.unit (s := S128) ![0] S128.size inb_S128_S128_0
abbrev r1_3 : Rect S128x1 := Rect.unit (s := S128x1) ![0, 0] S128x1.size inb_S128x1_S128x1_0_0
abbrev r1_4 : Rect S1 := Rect.unit (s := S1) ![0] S1.size inb_S1_S1_0
abbrev r1_5 : Rect S256x1 := Rect.unit (s := S256x1) ![0, 0] S256x1.size inb_S256x1_S256x1_0_0

/-- The output buffer after the body, from the operand blocks: one store over the whole block. -/
def out1_5 (x0 : Vec F S256x128 .bf16) (x1 : Vec F S128x128 .bf16) (x2 : Vec F S128 .f32) (x3 : Vec F S128x1 .bf16) (x4 : Vec F S1 .f32) : Vec F S256x1 .f32 :=
  View.canon [⟨r1_5, k1_pay1 (View.ld x0 r1_0) (View.ld x1 r1_1) (View.ld x3 r1_3) (View.ld x2 r1_2) (View.ld x4 r1_4)⟩]

/-- The one store covers the buffer. -/
theorem cover1_5 (p0 : Vec F S256x1 .f32) (y : S256x1.Idx) :
    ∃ pc ∈ ([⟨r1_5, p0⟩] : List (View.Piece (Elt F) S256x1 .f32)), y ∈ pc.1.set :=
  View.cover_of_tiled [⟨r1_5, p0⟩] S256x1.size (by rfl) y

set_option maxHeartbeats 4000000 in
/-- The body on whole buffers: the operands' at contents `x0 … x4`, the output's at anything; it ends with the operands'
    as they were and the output's at `out1_5` of them. -/
theorem sound_kernel1 (c : Dev nD) (E : Set ℕ) (i : grid1.Coords) (arg1 : Memref sig .tc .vmem S256x128 .bf16) (harg1 : arg1.IsWhole) (arg2 : Memref sig .tc .vmem S128x128 .bf16) (harg2 : arg2.IsWhole) (arg3 : Memref sig .tc .vmem S128 .f32) (harg3 : arg3.IsWhole) (arg4 : Memref sig .tc .vmem S128x1 .bf16) (harg4 : arg4.IsWhole) (arg5 : Memref sig .tc .vmem S1 .f32) (harg5 : arg5.IsWhole) (arg6 : Memref sig .tc .vmem S256x1 .f32) (harg6 : arg6.IsWhole)
    (x0 : Vec F S256x128 .bf16) (x1 : Vec F S128x128 .bf16) (x2 : Vec F S128 .f32) (x3 : Vec F S128x1 .bf16) (x4 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__readout_kernel i arg1 harg1 arg2 harg2 arg3 harg3 arg4 harg4 arg5 harg5 arg6 harg6) K := by
  simp only [cc1__readout_kernel_eq_skeleton]; unfold cc1__readout_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## What the pipeline is told the buffers hold -/

/-- The pipeline's data for this region on core `c`: the arrays as the region finds them; after the body at point `t`
    each operand's buffer at its block and the output's at `out1_5` of the operand blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body's obligation at a grid point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
/-- The body at any point: the operands' buffers hold their blocks, so the body's triple applies; the rest passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The whole program's run: host operations, the edge perceptron's region, host operations, the readout
  perceptron's region, one last host operation. The contents of every buffer at each boundary are a fold from the launch
  memory — a stretch of host operations applies them; a region replaces each of its arrays by what the pipeline leaves
  in it (an operand array as entered, the output array at its blocks' write-backs) and touches nothing else. Every
  weakly fair execution terminates with every unscoped buffer at the last fold; the argument arrays walk back through
  the fold to the launch memory, because no host operation writes one and a region only reads them.
-/
import proofs.«122574_j16913581212025_1_alg».proof.Proof.KIRegion0
import proofs.«122574_j16913581212025_1_alg».proof.Proof.KIRegion1
import proofs.«122574_j16913581212025_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first stretch of host operations: the edge region's entry. -/
abbrev W1 : Dev nD → Valuation τ sig (Elt F) := fun c => StableHlo.after hostOps0 (W0 m ρ c)
abbrev WV1 : (c : Dev nD) → (b : Ref sig .tc) → Buf (Elt F) ((c : Thread nD τ).loc b) := fun c b => W1 m ρ c b
/-- At the edge region's exit. -/
def W2 (c : Dev nD) : Valuation τ sig (Elt F) :=
  Pipeline.withArrays spec0 c (W1 m ρ c) fun w => (dat0 (WV1 m ρ) c).arrAt w cfg0.N
theorem W2_arr (c : Dev nD) (w : Fin cfg0.W) :
    W2 m ρ c (Proc.devRef .tc (Pipeline.arrRef spec0 w)) = (dat0 (WV1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev WV2 : (c : Dev nD) → (b : Ref sig .tc) → Buf (Elt F) ((c : Thread nD τ).loc b) := fun c b => W2 m ρ c b
theorem hF0 (c : Dev nD) (w : Fin cfg0.W) : (dat0 (WV1 m ρ) c).arrAt w cfg0.N = WV2 m ρ c (Pipeline.arrRef spec0 w) :=
  (W2_arr m ρ c w).symm
theorem hrest0 (c : Dev nD) : ∀ b, b ∉ Finset.univ.image (Pipeline.arrRef spec0) → WV2 m ρ c b = WV1 m ρ c b :=
  fun b hb => W2_of_ne m ρ c b fun w e => hb (Finset.mem_image.mpr ⟨w, Finset.mem_univ _, e⟩)

/-- After the second stretch of host operations: the readout region's entry. -/
abbrev W3 : Dev nD → Valuation τ sig (Elt F) := fun c => StableHlo.after hostOps1 (W2 m ρ c)
abbrev WV3 : (c : Dev nD) → (b : Ref sig .tc) → Buf (Elt F) ((c : Thread nD τ).loc b) := fun c b => W3 m ρ c b
/-- At the readout region's exit. -/
def W4 (c : Dev nD) : Valuation τ sig (Elt F) :=
  Pipeline.withArrays spec1 c (W3 m ρ c) fun w => (dat1 (WV3 m ρ) c).arrAt w cfg1.N
theorem W4_arr (c : Dev nD) (w : Fin cfg1.W) :
    W4 m ρ c (Proc.devRef .tc (Pipeline.arrRef spec1 w)) = (dat1 (WV3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev WV4 : (c : Dev nD) → (b : Ref sig .tc) → Buf (Elt F) ((c : Thread nD τ).loc b) := fun c b => W4 m ρ c b
theorem hF1 (c : Dev nD) (w : Fin cfg1.W) : (dat1 (WV3 m ρ) c).arrAt w cfg1.N = WV4 m ρ c (Pipeline.arrRef spec1 w) :=
  (W4_arr m ρ c w).symm
theorem hrest1 (c : Dev nD) : ∀ b, b ∉ Finset.univ.image (Pipeline.arrRef spec1) → WV4 m ρ c b = WV3 m ρ c b :=
  fun b hb => W4_of_ne m ρ c b fun w e => hb (Finset.mem_image.mpr ⟨w, Finset.mem_univ _, e⟩)

/-- After the last host operation: what the program ends with. -/
abbrev W5 : Dev nD → Valuation τ sig (Elt F) := fun c => StableHlo.after hostOps2 (W4 m ρ c)

/-! ## The argument arrays end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 2).trans (((dat0 (WV1 m ρ) c).arrAt_in 2 rfl _).trans (A_eq0 (WV1 m ρ) c 2))
    _ = W0 m ρ c (Proc.devRef .tc main_arg3) := StableHlo.after_of_writes_sub hostOps0 _ hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := (W2_arr m ρ c 4).trans (((dat0 (WV1 m ρ) c).arrAt_in 4 rfl _).trans (A_eq0 (WV1 m ρ) c 4))
    _ = W0 m ρ c (Proc.devRef .tc main_arg5) := StableHlo.after_of_writes_sub hostOps0 _ hostOps0_writes (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := (W4_arr m ρ c 2).trans (((dat1 (WV3 m ρ) c).arrAt_in 2 rfl _).trans (A_eq1 (WV3 m ρ) c 2))
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_writes_sub hostOps2 _ hostOps2_writes (by decide)
    _ = W3 m ρ c (Proc.devRef .tc main_arg9) := (W4_arr m ρ c 4).trans (((dat1 (WV3 m ρ) c).arrAt_in 4 rfl _).trans (A_eq1 (WV3 m ρ) c 4))
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl

/-! ## The thread state and the segments -/

abbrev adm : (p : Fin 2) → (pcfgs (F := F) p).Adm := fun p => (cfgs p).toPCfg_adm
/-- Each pipeline's data at its region's entry contents. -/
def pdats : (p : Fin 2) → (c : Dev nD) → Dat τ (Elt F) Unit ℕ (UR sig nD τ) ℕ (Pipeline.pin (pcfgs (F := F)) adm p) c
  | ⟨0, _⟩ => fun c => dat0 (WV1 m ρ) c
  | ⟨1, _⟩ => fun c => dat1 (WV3 m ρ) c
abbrev 𝒱₀ : Variants := Variants.none
abbrev L : GSem nD τ sig → Finset Unit := fun _ => ∅
abbrev lv : GSem nD τ sig → Unit → ℕ := fun _ _ => 0
/-- What rides beside the buffers: the core's generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

set_option backward.isDefEq.respectTransparency.types false in
/-- Region 0 over the thread state: entered with every unscoped buffer at `W1`, left at `W2`. Its arrays are split out of
    the unscoped buffers and put back at what the pipeline leaves in them; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (WV1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (WV1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (WV1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (WV1 m ρ c) (WV2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left at `W4`. Its arrays are split out of
    the unscoped buffers and put back at what the pipeline leaves in them; the generator register goes into the
    pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (WV3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (WV3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (WV3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (WV3 m ρ c) (WV4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

set_option backward.isDefEq.respectTransparency.types false in
/-- THE RUN. From any memory with zero counters every weakly fair execution of the program terminates, nothing faulting,
    and every final state has every unscoped buffer at the last fold `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c)⟩)
    (run_all m ρ)

end Cert.KernelIdeal.Hand

end
-- ==== Proof.KIHost.lean ====
/-
  The kernel program's three stretches of host operations, each read at the buffers the regions and the result need, over
  ANY contents `V` of the buffers the stretch starts from. Before the edge region: the edge input — the rows of `h` at the
  (wrapped) source and destination indices and the edge features, joined along the columns — and the two weight matrices,
  each passed through a change of float format. Between the regions: the two segment means applied to the edge
  messages, and again the weights through a change of format. After the readout region: one reshape. The two long
  chains are named once, `edgeInput` and `segmentMeans`, and never opened again.
-/
import proofs.«122574_j16913581212025_1_alg».proof.Proof.Gen.KernelIdeal.Launch
import Idealize.ShloMosaic.Lib.StableHlo.Run
import Idealize.ShloMosaic.PureOps.Ideal

set_option maxRecDepth 65536

noncomputable section

namespace Cert.KernelIdeal.Hand

open Cert.KernelIdeal Cert.KernelIdeal.Gen
open Idealize.ShloMosaic Idealize.ShloMosaic.TcCoe Idealize.SL.Sem Idealize.ShloMosaic.StableHlo

/-- An index vector with negative entries wrapped around by the table's height. -/
def wrapIdx (x : (⟨S1600000, .i32⟩ : BufTy).Contents (Elt Ideal)) : (⟨S1600000x1, .i32⟩ : BufTy).Contents (Elt Ideal) :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 100000#32))) x)

/-- The edge input: for every edge the source node's features, the destination node's features and the edge's own. -/
def edgeInput (x0 : (⟨S100000x6, .f32⟩ : BufTy).Contents (Elt Ideal)) (x1 : (⟨S1600000x3, .f32⟩ : BufTy).Contents (Elt Ideal))
    (x10 x11 : (⟨S1600000, .i32⟩ : BufTy).Contents (Elt Ideal)) : (⟨S1600000x15, .f32⟩ : BufTy).Contents (Elt Ideal) :=
  concatenate S1600000x15 1
    [⟨S1600000x6, Host.gather gather_S100000x6_S1600000x1_S1600000x6_1_0_n_n_0_1_16 x0 (wrapIdx x10)⟩,
     ⟨S1600000x6, Host.gather gather_S100000x6_S1600000x1_S1600000x6_1_0_n_n_0_1_16 x0 (wrapIdx x11)⟩,
     ⟨S1600000x3, x1⟩] concatenates_S1600000x6_S1600000x6_S1600000x3_S1600000x15_d1

/-- The two segment means: edge messages averaged into their destination nodes, node values averaged into their graphs
    (an empty segment divides by one). -/
def segmentMeans (y : (⟨S1600000x128, .f32⟩ : BufTy).Contents (Elt Ideal)) (x11 : (⟨S1600000, .i32⟩ : BufTy).Contents (Elt Ideal))
    (x12 : (⟨S100000, .i32⟩ : BufTy).Contents (Elt Ideal)) : (⟨S256x128, .f32⟩ : BufTy).Contents (Elt Ideal) :=
  Host.divf (F := Ideal)
    (Host.scatterAdd (F := Ideal) scatter_S256x128_S100000x1_S100000x128_1_0_0_1
      (broadcastInDim S256x128 ![] bcast_S_S256x128 (constant (F := Ideal) S_ .f32 0x00000000#32))
      (broadcastInDim S100000x1 ![0] bcast_S100000_S100000x1_0 x12)
      (Host.divf (F := Ideal)
        (Host.scatterAdd (F := Ideal) scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 x11) y)
        (broadcastInDim S100000x128 ![0, 1] bcast_S100000x1_S100000x128_0_1
          (broadcastInDim S100000x1 ![0] bcast_S100000_S100000x1_0
            (maximumf
              (Host.scatterAdd (F := Ideal) scatter_S100000_S1600000x1_S1600000_n_0_0_1
                (broadcastInDim S100000 ![] bcast_S_S100000 (constant (F := Ideal) S_ .f32 0x00000000#32))
                (broadcastInDim S1600000x1 ![0] bcast_S1600000_S1600000x1_0 x11)
                (broadcastInDim S1600000 ![] bcast_S_S1600000 (constant (F := Ideal) S_ .f32 0x3F800000#32)))
              (broadcastInDim S100000 ![] bcast_S_S100000 (constant (F := Ideal) S_ .f32 0x3F800000#32)))))))
    (broadcastInDim S256x128 ![0, 1] bcast_S256x1_S256x128_0_1
      (broadcastInDim S256x1 ![0] bcast_S256_S256x1_0
        (maximumf
          (Host.scatterAdd (F := Ideal) scatter_S256_S100000x1_S100000_n_0_0_1
            (broadcastInDim S256 ![] bcast_S_S256 (constant (F := Ideal) S_ .f32 0x00000000#32))
            (broadcastInDim S100000x1 ![0] bcast_S100000_S100000x1_0 x12)
            (broadcastInDim S100000 ![] bcast_S_S100000 (constant (F := Ideal) S_ .f32 0x3F800000#32)))
          (broadcastInDim S256 ![] bcast_S_S256 (constant (F := Ideal) S_ .f32 0x3F800000#32)))))

variable (V : Valuation τ sig (Elt Ideal))

/-! ## Before the edge region -/

set_option maxHeartbeats 8000000 in
theorem read0_v15 : (StableHlo.after hostOps0 V (Proc.devRef .tc main_v15) : FVec Ideal S1600000x15 .bf16)
    = truncf (F := Ideal) .bf16 (edgeInput (V (Proc.devRef .tc main_arg0)) (V (Proc.devRef .tc main_arg1)) (V (Proc.devRef .tc main_arg10)) (V (Proc.devRef .tc main_arg11))) bitsLt_bf16_f32 := by
  after_results_simp <;> rfl
set_option maxHeartbeats 8000000 in
theorem read0_v16 : (StableHlo.after hostOps0 V (Proc.devRef .tc main_v16) : FVec Ideal S15x128 .bf16)
    = truncf (F := Ideal) .bf16 (V (Proc.devRef .tc main_arg2) : FVec Ideal S15x128 .f32) bitsLt_bf16_f32 := by
  after_results_simp <;> rfl
set_option maxHeartbeats 8000000 in
theorem read0_v17 : (StableHlo.after hostOps0 V (Proc.devRef .tc main_v17) : FVec Ideal S128x128 .bf16)
    = truncf (F := Ideal) .bf16 (V (Proc.devRef .tc main_arg4) : FVec Ideal S128x128 .f32) bitsLt_bf16_f32 := by
  after_results_simp <;> rfl

/-! ## Between the regions -/

set_option maxHeartbeats 8000000 in
theorem read1_v44 : (StableHlo.after hostOps1 V (Proc.devRef .tc main_v44) : FVec Ideal S256x128 .bf16)
    = truncf (F := Ideal) .bf16 (segmentMeans (extf (F := Ideal) .f32 (V (Proc.devRef .tc main_v18) : FVec Ideal S1600000x128 .bf16) bitsLt_bf16_f32)
        (V (Proc.devRef .tc main_arg11)) (V (Proc.devRef .tc main_arg12))) bitsLt_bf16_f32 := by
  after_results_simp <;> rfl
set_option maxHeartbeats 8000000 in
theorem read1_v45 : (StableHlo.after hostOps1 V (Proc.devRef .tc main_v45) : FVec Ideal S128x128 .bf16)
    = truncf (F := Ideal) .bf16 (V (Proc.devRef .tc main_arg6) : FVec Ideal S128x128 .f32) bitsLt_bf16_f32 := by
  after_results_simp <;> rfl
set_option maxHeartbeats 8000000 in
theorem read1_v46 : (StableHlo.after hostOps1 V (Proc.devRef .tc main_v46) : FVec Ideal S128x1 .bf16)
    = truncf (F := Ideal) .bf16 (V (Proc.devRef .tc main_arg8) : FVec Ideal S128x1 .f32) bitsLt_bf16_f32 := by
  after_results_simp <;> rfl

/-! ## After the readout region -/

set_option maxHeartbeats 8000000 in
theorem read2_v48 : (StableHlo.after hostOps2 V (Proc.devRef .tc main_v48) : FVec Ideal S256 .f32)
    = shapeCast _ (V (Proc.devRef .tc main_v47) : FVec Ideal S256x1 .f32) shapeCasts_S256x1_S256 := by
  after_results_simp <;> rfl

end Cert.KernelIdeal.Hand

end
-- ==== Proof.Spec.lean ====
/-
  The mathematics both programs compute twice: a two-layer perceptron with a rectifier between the layers,
  row by row. For a matrix `x` of rows, weights `w1`, `w2` and biases `b1`, `b2`, entry `(r, o)` of the result is
      (∑ k, max ((∑ l, x r l * w1 l k) + b1 k) 0 * w2 k o) + b2 o
  over the extended reals. The sums are finite sums over the hidden and input coordinates; no law beyond the
  definition is needed to identify the two programs' forms of it, because both compute exactly this expression.
-/
import Mathlib.Data.EReal.Basic
import Mathlib.Algebra.BigOperators.Group.Finset.Basic

noncomputable section

namespace Cert.Spec

open scoped BigOperators

/-- A two-layer perceptron with a rectifier, at row `r` and output coordinate `o`. -/
def mlp2 {R I H O : Type} [Fintype I] [Fintype H]
    (x : R → I → EReal) (w1 : I → H → EReal) (b1 : H → EReal) (w2 : H → O → EReal) (b2 : O → EReal)
    (r : R) (o : O) : EReal :=
  (∑ k : H, max ((∑ l : I, x r l * w1 l k) + b1 k) 0 * w2 k o) + b2 o

end Cert.Spec

end
-- ==== Proof.RefStages.lean ====
/-
  The reference program read at an index.

  Its first perceptron (the edge messages) and its last one (the read-out) are each the two-layer perceptron of the
  shared specification, applied to the rows of the stage before it; the stages between them (two segment means) are
  named as one function of the edge messages and the two index vectors; the result is the read-out reshaped.
-/
import proofs.«122574_j16913581212025_1_alg».proof.Proof.Spec
import proofs.«122574_j16913581212025_1_alg».proof.Proof.Gen.ReferenceIdeal.Read
import Idealize.ShloMosaic.Lib.Pipeline.Value
import Idealize.ShloMosaic.Lib.ValueIdx
import Idealize.ShloMosaic.PureOps.Ideal.Laws

noncomputable section

namespace Cert.Bridge

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The stages between the edge messages and the read-out's input: the mean of the messages over each node's incoming
edges, then the mean of the node values over each graph's nodes (each a scatter-add divided by the clamped count). -/
def midR (y : (⟨S1600000x128, .f32⟩ : BufTy).Contents (Elt Ideal)) (x11 : (⟨S1600000, .i32⟩ : BufTy).Contents (Elt Ideal)) (x12 : (⟨S100000, .i32⟩ : BufTy).Contents (Elt Ideal)) : (⟨S256x128, .f32⟩ : BufTy).Contents (Elt Ideal) :=
  Host.divf
    (Host.scatterAdd scatter_S256x128_S100000x1_S100000x128_1_0_0_1
      (broadcastInDim S256x128 ![] bcast_S_S256x128 (constant (F := Ideal) S_ .f32 0x00000000#32))
      (broadcastInDim S100000x1 ![0] bcast_S100000_S100000x1_0 (x12))
      (Host.divf
        (Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (x11))
          y)
        (broadcastInDim S100000x128 ![0, 1] bcast_S100000x1_S100000x128_0_1
          (broadcastInDim S100000x1 ![0] bcast_S100000_S100000x1_0
            (maximumf
              (Host.scatterAdd scatter_S100000_S1600000x1_S1600000_n_0_0_1
                (broadcastInDim S100000 ![] bcast_S_S100000 (constant (F := Ideal) S_ .f32 0x00000000#32))
                (broadcastInDim S1600000x1 ![0] bcast_S1600000_S1600000x1_0 (x11))
                (broadcastInDim S1600000 ![] bcast_S_S1600000 (constant (F := Ideal) S_ .f32 0x3F800000#32)))
              (broadcastInDim S100000 ![] bcast_S_S100000 (constant (F := Ideal) S_ .f32 0x3F800000#32)))))))
    (broadcastInDim S256x128 ![0, 1] bcast_S256x1_S256x128_0_1
      (broadcastInDim S256x1 ![0] bcast_S256_S256x1_0
        (maximumf
          (Host.scatterAdd scatter_S256_S100000x1_S100000_n_0_0_1
            (broadcastInDim S256 ![] bcast_S_S256 (constant (F := Ideal) S_ .f32 0x00000000#32))
            (broadcastInDim S100000x1 ![0] bcast_S100000_S100000x1_0 (x12))
            (broadcastInDim S100000 ![] bcast_S_S100000 (constant (F := Ideal) S_ .f32 0x3F800000#32)))
          (broadcastInDim S256 ![] bcast_S_S256 (constant (F := Ideal) S_ .f32 0x3F800000#32)))))

/-- The read-out's input is the middle chain applied to the edge messages. -/
theorem ref_mid (x0 : (⟨S100000x6, .f32⟩ : BufTy).Contents (Elt Ideal)) (x1 : (⟨S1600000x3, .f32⟩ : BufTy).Contents (Elt Ideal)) (x2 : (⟨S15x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x10 x11 : (⟨S1600000, .i32⟩ : BufTy).Contents (Elt Ideal)) (x12 : (⟨S100000, .i32⟩ : BufTy).Contents (Elt Ideal)) :
    val_main_v47 (F := Ideal) x0 x1 x2 x3 x4 x5 x10 x11 x12 = midR (val_main_v23 (F := Ideal) x0 x1 x2 x3 x4 x5 x10 x11) x11 x12 := by
  unfold val_main_v47 val_main_v46 val_main_v45 val_main_v44 val_main_v43 val_main_cst_9 val_main_v42 val_main_v41
    val_main_v40 val_main_cst_8 val_main_v39 val_main_cst_7 val_main_v38 val_main_v37 val_main_v36 val_main_cst_6
    val_main_v35 val_main_v34 val_main_v33 val_main_v32 val_main_v31 val_main_cst_5 val_main_v30 val_main_v29
    val_main_v28 val_main_cst_4 val_main_v27 val_main_cst_3 val_main_v26 val_main_v25 val_main_v24 val_main_cst midR
  rfl

/-- The result is the read-out, reshaped from a column to a vector. -/
theorem ref_out (x0 : (⟨S100000x6, .f32⟩ : BufTy).Contents (Elt Ideal)) (x1 : (⟨S1600000x3, .f32⟩ : BufTy).Contents (Elt Ideal)) (x2 : (⟨S15x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x1, .f32⟩ : BufTy).Contents (Elt Ideal)) (x9 : (⟨S1, .f32⟩ : BufTy).Contents (Elt Ideal)) (x10 x11 : (⟨S1600000, .i32⟩ : BufTy).Contents (Elt Ideal)) (x12 : (⟨S100000, .i32⟩ : BufTy).Contents (Elt Ideal)) :
    val_main_v57 (F := Ideal) x0 x1 x2 x3 x4 x5 x6 x7 x8 x9 x10 x11 x12
      = shapeCast _ (val_main_v56 (F := Ideal) x0 x1 x2 x3 x4 x5 x6 x7 x8 x9 x10 x11 x12) shapeCasts_S256x1_S256 := rfl

/-! ### The edge messages -/

/-- The first bias, broadcast along the edges, at `(p, k)`. -/
private theorem edge_bias1 (x3 : (⟨S128, .f32⟩ : BufTy).Contents (Elt Ideal)) (p : Fin 1600000) (k : Fin 128) :
    val_main_v17 (F := Ideal) x3 (ix2 p k) = x3 (ix1 k) := by
  rw [val_main_v17_apply, val_main_v16_apply]
  exact congrArg x3 (funext fun a => Fin.ext (by match a with | ⟨0, _⟩ => rfl))

/-- The rectifier's zero, broadcast over the edge messages' shape. -/
private theorem edge_zero (p : Fin 1600000) (k : Fin 128) :
    val_main_call0_v0 (F := Ideal) (ix2 p k) = 0 := by
  rw [val_main_call0_v0_apply, val_main_call0_cst_apply]
  exact Ideal.ofBits_zero_f32

/-- The hidden layer of the edge perceptron at `(p, k)`. -/
private theorem edge_hidden (x0 : (⟨S100000x6, .f32⟩ : BufTy).Contents (Elt Ideal)) (x1 : (⟨S1600000x3, .f32⟩ : BufTy).Contents (Elt Ideal)) (x2 : (⟨S15x128, .f32⟩ : BufTy).Contents (Elt Ideal)) (x3 : (⟨S128, .f32⟩ : BufTy).Contents (Elt Ideal)) (x10 x11 : (⟨S1600000, .i32⟩ : BufTy).Contents (Elt Ideal)) (p : Fin 1600000) (k : Fin 128) :
    val_main_v19 (F := Ideal) x0 x1 x2 x3 x10 x11 (ix2 p k)
      = max ((∑ l : Fin 15, val_main_v14 (F := Ideal) x0 x1 x10 x11 (ix2 p l) * x2 (ix2 l k)) + x3 (ix1 k)) 0 := by
  rw [val_main_v19_apply, val_main_v18_apply, val_main_v15_apply, edge_bias1, edge_zero, Ideal.maximumf_def,
    Ideal.addf_def]
  refine congrArg (fun t => max (t + x3 (ix1 k)) 0) ?_
  refine Finset.sum_congr rfl fun l _ => ?_
  have el : lidx_main_v15 (ix2 p k) l = ix2 p l := funext fun a => Fin.ext (by match a with | ⟨0, _⟩ => rfl | ⟨1, _⟩ => rfl)
  have er : ridx_main_v15 (ix2 p k) l = ix2 l k := funext fun a => Fin.ext (by match a with | ⟨0, _⟩ => rfl | ⟨1, _⟩ => rfl)
  rw [el, er]

/-- The edge messages are the two-layer perceptron of the joined edge input, row by row. -/
theorem ref_edge_apply (x0 : (⟨S100000x6, .f32⟩ : BufTy).Contents (Elt Ideal)) (x1 : (⟨S1600000x3, .f32⟩ : BufTy).Contents (Elt Ideal)) (x2 : (⟨S15x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x10 x11 : (⟨S1600000, .i32⟩ : BufTy).Contents (Elt Ideal)) (p : Fin 1600000) (q : Fin 128) :
    val_main_v23 (F := Ideal) x0 x1 x2 x3 x4 x5 x10 x11 (ix2 p q)
      = Cert.Spec.mlp2 (fun (r : Fin 1600000) (l : Fin 15) => val_main_v14 (F := Ideal) x0 x1 x10 x11 (ix2 r l))
          (fun (l : Fin 15) (k : Fin 128) => x2 (ix2 l k)) (fun k : Fin 128 => x3 (ix1 k))
          (fun (k : Fin 128) (o : Fin 128) => x4 (ix2 k o)) (fun o : Fin 128 => x5 (ix1 o)) p q := by
  rw [val_main_v23_apply, val_main_v20_apply, val_main_v22_apply, val_main_v21_apply, Ideal.addf_def]
  unfold Cert.Spec.mlp2
  have eb : idx_main_v21 (idx_main_v22 (ix2 p q)) = ix1 q := funext fun a => Fin.ext (by match a with | ⟨0, _⟩ => rfl)
  rw [eb]
  refine congrArg (fun t => t + x5 (ix1 q)) ?_
  refine Finset.sum_congr rfl fun k _ => ?_
  have el : lidx_main_v20 (ix2 p q) k = ix2 p k := funext fun a => Fin.ext (by match a with | ⟨0, _⟩ => rfl | ⟨1, _⟩ => rfl)
  have er : ridx_main_v20 (ix2 p q) k = ix2 k q := funext fun a => Fin.ext (by match a with | ⟨0, _⟩ => rfl | ⟨1, _⟩ => rfl)
  rw [el, er, edge_hidden]

/-! ### The read-out -/

/-- The read-out's first bias, broadcast along the graphs, at `(p, k)`. -/
private theorem readout_bias1 (x7 : (⟨S128, .f32⟩ : BufTy).Contents (Elt Ideal)) (p : Fin 256) (k : Fin 128) :
    val_main_v50 (F := Ideal) x7 (ix2 p k) = x7 (ix1 k) := by
  rw [val_main_v50_apply, val_main_v49_apply]
  exact congrArg x7 (funext fun a => Fin.ext (by match a with | ⟨0, _⟩ => rfl))

/-- The rectifier's zero, broadcast over the read-out's hidden shape. -/
private theorem readout_zero (p : Fin 256) (k : Fin 128) :
    val_main_call1_v0 (F := Ideal) (ix2 p k) = 0 := by
  rw [val_main_call1_v0_apply, val_main_call1_cst_apply]
  exact Ideal.ofBits_zero_f32

/-- The hidden layer of the read-out perceptron at `(p, k)`. -/
private theorem readout_hidden (x0 : (⟨S100000x6, .f32⟩ : BufTy).Contents (Elt Ideal)) (x1 : (⟨S1600000x3, .f32⟩ : BufTy).Contents (Elt Ideal)) (x2 : (⟨S15x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x10 x11 : (⟨S1600000, .i32⟩ : BufTy).Contents (Elt Ideal)) (x12 : (⟨S100000, .i32⟩ : BufTy).Contents (Elt Ideal)) (p : Fin 256) (k : Fin 128) :
    val_main_v52 (F := Ideal) x0 x1 x2 x3 x4 x5 x6 x7 x10 x11 x12 (ix2 p k)
      = max ((∑ l : Fin 128, val_main_v47 (F := Ideal) x0 x1 x2 x3 x4 x5 x10 x11 x12 (ix2 p l) * x6 (ix2 l k)) + x7 (ix1 k)) 0 := by
  rw [val_main_v52_apply, val_main_v51_apply, val_main_v48_apply, readout_bias1, readout_zero, Ideal.maximumf_def,
    Ideal.addf_def]
  refine congrArg (fun t => max (t + x7 (ix1 k)) 0) ?_
  refine Finset.sum_congr rfl fun l _ => ?_
  have el : lidx_main_v48 (ix2 p k) l = ix2 p l := funext fun a => Fin.ext (by match a with | ⟨0, _⟩ => rfl | ⟨1, _⟩ => rfl)
  have er : ridx_main_v48 (ix2 p k) l = ix2 l k := funext fun a => Fin.ext (by match a with | ⟨0, _⟩ => rfl | ⟨1, _⟩ => rfl)
  rw [el, er]

/-- The read-out is the two-layer perceptron of the graph means, row by row. -/
theorem ref_readout_apply (x0 : (⟨S100000x6, .f32⟩ : BufTy).Contents (Elt Ideal)) (x1 : (⟨S1600000x3, .f32⟩ : BufTy).Contents (Elt Ideal)) (x2 : (⟨S15x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x1, .f32⟩ : BufTy).Contents (Elt Ideal)) (x9 : (⟨S1, .f32⟩ : BufTy).Contents (Elt Ideal)) (x10 x11 : (⟨S1600000, .i32⟩ : BufTy).Contents (Elt Ideal)) (x12 : (⟨S100000, .i32⟩ : BufTy).Contents (Elt Ideal)) (p : Fin 256) (q : Fin 1) :
    val_main_v56 (F := Ideal) x0 x1 x2 x3 x4 x5 x6 x7 x8 x9 x10 x11 x12 (ix2 p q)
      = Cert.Spec.mlp2 (fun (r : Fin 256) (l : Fin 128) => val_main_v47 (F := Ideal) x0 x1 x2 x3 x4 x5 x10 x11 x12 (ix2 r l))
          (fun (l : Fin 128) (k : Fin 128) => x6 (ix2 l k)) (fun k : Fin 128 => x7 (ix1 k))
          (fun (k : Fin 128) (o : Fin 1) => x8 (ix2 k o)) (fun o : Fin 1 => x9 (ix1 o)) p q := by
  rw [val_main_v56_apply, val_main_v53_apply, val_main_v55_apply, val_main_v54_apply, Ideal.addf_def]
  unfold Cert.Spec.mlp2
  have eb : idx_main_v54 (idx_main_v55 (ix2 p q)) = ix1 q :=
    funext fun a => Fin.ext (by match a with | ⟨0, _⟩ => exact (Fin.val_eq_zero q).symm)
  rw [eb]
  refine congrArg (fun t => t + x9 (ix1 q)) ?_
  refine Finset.sum_congr rfl fun k _ => ?_
  have el : lidx_main_v53 (ix2 p q) k = ix2 p k := funext fun a => Fin.ext (by match a with | ⟨0, _⟩ => rfl | ⟨1, _⟩ => rfl)
  have er : ridx_main_v53 (ix2 p q) k = ix2 k q := funext fun a => Fin.ext (by match a with | ⟨0, _⟩ => rfl | ⟨1, _⟩ => rfl)
  rw [el, er, readout_hidden]

end Cert.Bridge

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.EdgePayload.lean ====
/-
  The edge perceptron's stored tile read at an index.

  Over the extended reals a change of float format is the identity, a matrix product into a zero accumulator is the
  textbook contraction, a bias cast to one row and laid along every row reads the bias at the column, and the rectifier
  is the maximum against zero. So entry (p, q) of the tile the kernel stores is
      (∑ k, max ((∑ l, x p l * w1 l k) + b1 k) 0 * w2 k q) + b2 q,
  the two-layer perceptron of the specification at row p and output coordinate q.
-/
import proofs.«122574_j16913581212025_1_alg».proof.Proof.Spec
import proofs.«122574_j16913581212025_1_alg».proof.Proof.LibPlainProduct
import proofs.«122574_j16913581212025_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx

open scoped BigOperators

/-- A bias of n entries cast to one row and laid along each of m rows reads, at (p, q), the bias at q. -/
theorem bias_rows_apply {m n : Nat} (b : FVec Ideal ⟨1, ![n]⟩ .f32)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ b h1) hb (ix2 p q) = b (ix1 q) :=
  (broadcastTo_1b_ab_apply (shapeCast ⟨2, ![1, n]⟩ b h1) hb p q).trans (shapeCast_a_1a_apply b h1 (0 : Fin 1) q)

/-- The rectified first layer at (p, k): the product into zero plus the bias row, against the zero splat, with the
    format change that follows it. -/
theorem hidden_apply {m i h : Nat} (d : DotDims ⟨2, ![m, i]⟩ ⟨2, ![i, h]⟩ ⟨2, ![m, h]⟩) (hd : d = DotDims.plain m i h)
    (X : FVec Ideal ⟨2, ![m, i]⟩ .bf16) (W : FVec Ideal ⟨2, ![i, h]⟩ .bf16) (b : FVec Ideal ⟨1, ![h]⟩ .f32)
    (h1 : (⟨1, ![h]⟩ : Shape).ShapeCasts ⟨2, ![1, h]⟩) (hb : (⟨2, ![1, h]⟩ : Shape).Broadcasts ⟨2, ![m, h]⟩)
    (hlt : FTy.bits .bf16 < FTy.bits .f32) (p : Fin m) (k : Fin h) :
    (truncf .bf16 (maximumf (addf (matmul d none X W (constant ⟨2, ![m, h]⟩ .f32 0x00000000#32))
        (broadcastTo ⟨2, ![m, h]⟩ (shapeCast ⟨2, ![1, h]⟩ b h1) hb))
      (broadcast ⟨2, ![m, h]⟩ (Scalar.ofBits .f32 0x00000000#32))) hlt : FVec Ideal ⟨2, ![m, h]⟩ .bf16) (ix2 p k)
      = max ((∑ l : Fin i, X (ix2 p l) * W (ix2 l k)) + b (ix1 k)) 0 := by
  rw [truncf_apply, maximumf_apply, addf_apply, broadcast_apply, Cert.PlainProduct.matmul_plain_apply d hd,
    bias_rows_apply]
  exact congrArg (max _) Ideal.ofBits_zero_f32

open Cert.KernelIdeal Cert.KernelIdeal.Gen in
/-- Entry (p, q) of the tile the edge kernel stores is the two-layer perceptron of the specification there. -/
theorem edge_payload_apply (v0 : Vec Ideal Cert.KernelIdeal.S32000x15 .bf16) (v2 : Vec Ideal Cert.KernelIdeal.S15x128 .bf16)
    (v4 : Vec Ideal Cert.KernelIdeal.S128x128 .bf16) (v7 v15 : Vec Ideal Cert.KernelIdeal.S128 .f32)
    (p : Fin 32000) (q : Fin 128) :
    Cert.KernelIdeal.Gen.k0_pay1 (F := Ideal) v0 v2 v4 v7 v15 (ix2 p q)
      = Cert.Spec.mlp2 (fun (r : Fin 32000) (l : Fin 15) => v0 (ix2 r l)) (fun (l : Fin 15) (k : Fin 128) => v2 (ix2 l k))
          (fun k : Fin 128 => v7 (ix1 k)) (fun (k : Fin 128) (o : Fin 128) => v4 (ix2 k o)) (fun o : Fin 128 => v15 (ix1 o)) p q := by
  unfold Cert.KernelIdeal.Gen.k0_pay1 Cert.Spec.mlp2
  simp only [shapeCast_self]
  rw [truncf_apply, addf_apply]
  refine congrArg₂ (· + ·) ?_ (bias_rows_apply v15 _ _ p q)
  refine (Cert.PlainProduct.matmul_plain_apply (φ₁ := .bf16) (φ₂ := .bf16)
    dot_S32000x128_S128x128_S32000x128_1_0_0_1_n_n rfl none _ v4 p q).trans ?_
  exact Finset.sum_congr rfl fun k _ => congrArg (· * v4 (ix2 k q))
    (hidden_apply dot_S32000x15_S15x128_S32000x128_1_0_0_1_n_n rfl v0 v2 v7 _ _ _ p k)

end Cert.Bridge

end
-- ==== Proof.KIEdgeArray.lean ====
/-
  From the edge perceptron's blocks to its array.

  The region walks the 1600000 edges in 50 tiles of 32000 rows. At every point the weights and biases are read whole
  and the rows' block is the tile's rows, so what the point writes back is the tile's rows of ONE function of the five
  arrays the region is entered with: the two-layer perceptron of the specification, row by row. Row r lies in tile
  r / 32000, so the tiles cover the array, and the array ends holding that function.
-/
import proofs.«122574_j16913581212025_1_alg».proof.Proof.KIRegion0
import proofs.«122574_j16913581212025_1_alg».proof.Proof.EdgePayload
import proofs.«122574_j16913581212025_1_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The edge messages as one function of the five arrays: the perceptron of the specification at the index's row and
    output coordinate. -/
def edgeG (a0 : S1600000x15.Idx → EReal) (a1 : S15x128.Idx → EReal) (a2 : S128.Idx → EReal)
    (a3 : S128x128.Idx → EReal) (a4 : S128.Idx → EReal) : S1600000x128.Idx → EReal :=
  fun i => Cert.Spec.mlp2 (fun (r : Fin 1600000) (l : Fin 15) => a0 (ix2 r l)) (fun (l : Fin 15) (k : Fin 128) => a1 (ix2 l k))
    (fun k : Fin 128 => a2 (ix1 k)) (fun (k : Fin 128) (o : Fin 128) => a3 (ix2 k o)) (fun o : Fin 128 => a4 (ix1 o))
    (⟨(i 0).val, idx2_lt0 i⟩ : Fin 1600000) (⟨(i 1).val, idx2_lt1 i⟩ : Fin 128)

private theorem zeros2 : (![0, 0] : Fin 2 → Nat) = fun _ => 0 := funext fun a => by fin_cases a <;> rfl
private theorem zeros1 : (![0] : Fin 1 → Nat) = fun _ => 0 := funext fun a => by fin_cases a <;> rfl

/-- The tile stored from operand blocks that are: rows n·32000 … of the first array, and the other four arrays whole,
    is, at a tile index, the function of the arrays at the array index 32000·n rows further down. -/
private theorem edge_point (x0 : Vec Ideal S32000x15 .bf16) (x1 : Vec Ideal S15x128 .bf16) (x2 : Vec Ideal S128 .f32)
    (x3 : Vec Ideal S128x128 .bf16) (x4 : Vec Ideal S128 .f32)
    (a0 : S1600000x15.Idx → EReal) (a1 : S15x128.Idx → EReal) (a2 : S128.Idx → EReal)
    (a3 : S128x128.Idx → EReal) (a4 : S128.Idx → EReal) (n : Nat)
    (h0 : ∀ (p : Fin 32000) (l : Fin 15) (r : Fin 1600000), r.val = n * 32000 + p.val → x0 (ix2 p l) = a0 (ix2 r l))
    (h1 : ∀ (l : Fin 15) (k : Fin 128), x1 (ix2 l k) = a1 (ix2 l k))
    (h2 : ∀ k : Fin 128, x2 (ix1 k) = a2 (ix1 k))
    (h3 : ∀ (k : Fin 128) (o : Fin 128), x3 (ix2 k o) = a3 (ix2 k o))
    (h4 : ∀ o : Fin 128, x4 (ix1 o) = a4 (ix1 o))
    (y : S32000x128.Idx) (i : S1600000x128.Idx) (hi0 : (i 0).val = n * 32000 + (y 0).val) (hi1 : (i 1).val = (y 1).val) :
    k0_pay1 (F := Ideal) x0 x1 x3 x2 x4 y = edgeG a0 a1 a2 a3 a4 i := by
  obtain ⟨p, q, rfl⟩ : ∃ (p : Fin 32000) (q : Fin 128), y = ix2 p q := ⟨y 0, y 1, eq_ix2 y⟩
  have hp : (⟨(i 0).val, idx2_lt0 i⟩ : Fin 1600000).val = n * 32000 + p.val := hi0
  have hq : (⟨(i 1).val, idx2_lt1 i⟩ : Fin 128) = q := Fin.ext hi1
  rw [Cert.Bridge.edge_payload_apply]
  unfold edgeG Cert.Spec.mlp2
  rw [hq]
  simp only [h1, h2, h3, h4, h0 p _ _ hp]

variable (V : (c : Dev nD) → (b : Ref sig .tc) → Buf (Elt Ideal) ((c : Thread nD τ).loc b))

/-- The windows' block indices over the grid: the rows' and the result's blocks move with the point along the rows, every other block
    sits at the origin. -/
private theorem edge_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The rows' block at point t is rows 32000·t … of the first array. -/
private theorem edge_rows_apply (c : Dev nD) (t : Fin cfg0.N) (p : Fin 32000) (l : Fin 15) (r : Fin 1600000)
    (hr : r.val = t.val * 32000 + p.val) :
    (iblk0 V c 0 t : Vec Ideal S32000x15 .bf16) (ix2 p l) = (V c main_v15 : S1600000x15.Idx → EReal) (ix2 r l) := by
  obtain ⟨e0, e1, -⟩ := edge_index t
  unfold iblk0
  rw [View.read_apply]
  show (V c main_v15 : S1600000x15.Idx → EReal) _ = (V c main_v15 : S1600000x15.Idx → EReal) _
  congr 1
  funext a
  apply Fin.ext
  match a with
  | ⟨0, _⟩ => show win0_0.index t (0 : Fin 2) * 32000 + 1 * p.val = r.val; rw [e0, hr]; omega
  | ⟨1, _⟩ => show win0_0.index t (1 : Fin 2) * 15 + 1 * l.val = l.val; rw [e1]; omega

/-- The first weights' block at every point is the second array. -/
private theorem edge_w1_apply (c : Dev nD) (t : Fin cfg0.N) (l : Fin 15) (k : Fin 128) :
    (iblk0 V c 1 t : Vec Ideal S15x128 .bf16) (ix2 l k) = (V c main_v16 : S15x128.Idx → EReal) (ix2 l k) := by
  obtain ⟨-, -, e0, e1, -⟩ := edge_index t
  unfold iblk0
  rw [View.read_apply]
  show (V c main_v16 : S15x128.Idx → EReal) _ = (V c main_v16 : S15x128.Idx → EReal) _
  congr 1
  funext a
  apply Fin.ext
  match a with
  | ⟨0, _⟩ => show win0_1.index t (0 : Fin 2) * 15 + 1 * l.val = l.val; rw [e0]; omega
  | ⟨1, _⟩ => show win0_1.index t (1 : Fin 2) * 128 + 1 * k.val = k.val; rw [e1]; omega

/-- The first bias's block at every point is the third array. -/
private theorem edge_b1_apply (c : Dev nD) (t : Fin cfg0.N) (k : Fin 128) :
    (iblk0 V c 2 t : Vec Ideal S128 .f32) (ix1 k) = (V c main_arg3 : S128.Idx → EReal) (ix1 k) := by
  obtain ⟨-, -, -, -, e0, -⟩ := edge_index t
  unfold iblk0
  rw [View.read_apply]
  show (V c main_arg3 : S128.Idx → EReal) _ = (V c main_arg3 : S128.Idx → EReal) _
  congr 1
  funext a
  apply Fin.ext
  match a with
  | ⟨0, _⟩ => show win0_2.index t (0 : Fin 1) * 128 + 1 * k.val = k.val; rw [e0]; omega

/-- The second weights' block at every point is the fourth array. -/
private theorem edge_w2_apply (c : Dev nD) (t : Fin cfg0.N) (k : Fin 128) (o : Fin 128) :
    (iblk0 V c 3 t : Vec Ideal S128x128 .bf16) (ix2 k o) = (V c main_v17 : S128x128.Idx → EReal) (ix2 k o) := by
  obtain ⟨-, -, -, -, -, e0, e1, -⟩ := edge_index t
  unfold iblk0
  rw [View.read_apply]
  show (V c main_v17 : S128x128.Idx → EReal) _ = (V c main_v17 : S128x128.Idx → EReal) _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * o.val = o.val; rw [e1]; omega

/-- The second bias's block at every point is the fifth array. -/
private theorem edge_b2_apply (c : Dev nD) (t : Fin cfg0.N) (o : Fin 128) :
    (iblk0 V c 4 t : Vec Ideal S128 .f32) (ix1 o) = (V c main_arg5 : S128.Idx → EReal) (ix1 o) := by
  obtain ⟨-, -, -, -, -, -, -, e0, -⟩ := edge_index t
  unfold iblk0
  rw [View.read_apply]
  show (V c main_arg5 : S128.Idx → EReal) _ = (V c main_arg5 : S128.Idx → EReal) _
  congr 1
  funext a
  apply Fin.ext
  match a with
  | ⟨0, _⟩ => show win0_4.index t (0 : Fin 1) * 128 + 1 * o.val = o.val; rw [e0]; omega

/-- What point t writes back is block t of the function of the arrays. -/
theorem edge_flushed (c : Dev nD) (t : Fin cfg0.N) :
    (dat0 (F := Ideal) V c).flushed 5 t = ((cfg0.win 5).blk t).view.read (Elt Ideal)
      (edgeG (V c main_v15) (V c main_v16) (V c main_arg3) (V c main_v17) (V c main_arg5)) := by
  show (cfg0.win 5).cut (grid0.coords t) ((dat0 (F := Ideal) V c).after 5 t) = _
  rw [after0_5]
  unfold out0_5
  rw [View.canon_unit_zero zeros2]
  simp only [View.ld_unit_zero (S := S32000x15) zeros2, View.ld_unit_zero (S := S15x128) zeros2,
    View.ld_unit_zero (S := S128) zeros1, View.ld_unit_zero (S := S128x128) zeros2]
  obtain ⟨-, -, -, -, -, -, -, -, e0, e1⟩ := edge_index t
  funext j
  refine edge_point (iblk0 V c 0 t) (iblk0 V c 1 t) (iblk0 V c 2 t) (iblk0 V c 3 t) (iblk0 V c 4 t)
    (V c main_v15) (V c main_v16) (V c main_arg3) (V c main_v17) (V c main_arg5) t.val
    (fun p l r hr => edge_rows_apply V c t p l r hr) (fun l k => edge_w1_apply V c t l k)
    (fun k => edge_b1_apply V c t k) (fun k o => edge_w2_apply V c t k o) (fun o => edge_b2_apply V c t o)
    ((cfg0.win 5).xinj (grid0.coords t) j) (((cfg0.win 5).blk t).view.emb j) ?_ ?_
  · show win0_5.index t (0 : Fin 2) * 32000 + 1 * (j 0).val = t.val * 32000 + (j 0).val
    rw [e0]; omega
  · show win0_5.index t (1 : Fin 2) * 128 + 1 * (j 1).val = (j 1).val
    rw [e1]; omega

/-- An index of the array is in point t's block iff each coordinate is in the block's range on its axis. -/
private theorem edge_mem_blk (t : Fin cfg0.N) (i : S1600000x128.Idx) :
    i ∈ ((cfg0.win 5).blk t).view.set ↔ ∀ a : Fin 2, win0_5.index t a * S32000x128.size a ≤ (i a).val
      ∧ (i a).val < win0_5.index t a * S32000x128.size a + S32000x128.size a := by
  show i ∈ ((View.whole main_v18).slice (win0_5.rect t)).set ↔ _
  rw [View.set_slice_whole, Rect.mem_set_unit]
  exact Iff.rfl

/-- Row r of the array lies in the block of point r / 32000, which is written back. -/
theorem edge_cover (i : S1600000x128.Idx) :
    ∃ t : Fin cfg0.N, (cfg0.win 5).flush t = true ∧ i ∈ ((cfg0.win 5).blk t).view.set := by
  have hN : grid0.N = 50 := N_0
  have h0 : (i 0).val < 1600000 := (i 0).isLt
  have h1 : (i 1).val < 128 := (i 1).isLt
  obtain ⟨t, ht⟩ : ∃ t : Fin cfg0.N, t.val = (i 0).val / 32000 :=
    ⟨⟨(i 0).val / 32000, by show (i 0).val / 32000 < grid0.N; rw [hN]; omega⟩, rfl⟩
  obtain ⟨-, -, -, -, -, -, -, -, e0, e1⟩ := edge_index t
  refine ⟨t, flush0_5 t, ?_⟩
  rw [edge_mem_blk]
  intro a
  match a with
  | ⟨0, _⟩ =>
    show win0_5.index t (0 : Fin 2) * 32000 ≤ (i 0).val ∧ (i 0).val < win0_5.index t (0 : Fin 2) * 32000 + 32000
    rw [e0, ht]; omega
  | ⟨1, _⟩ =>
    show win0_5.index t (1 : Fin 2) * 128 ≤ (i 1).val ∧ (i 1).val < win0_5.index t (1 : Fin 2) * 128 + 128
    rw [e1]; omega

/-- After the region the edge messages' array holds the function of the arrays. -/
theorem edge_final (c : Dev nD) : (dat0 (F := Ideal) V c).arrAt 5 cfg0.N
    = edgeG (V c main_v15) (V c main_v16) (V c main_arg3) (V c main_v17) (V c main_arg5) :=
  (dat0 (F := Ideal) V c).arrAt_eq_of_cover 5
    (edgeG (V c main_v15) (V c main_v16) (V c main_arg3) (V c main_v17) (V c main_arg5))
    (fun t _ => edge_flushed V c t) edge_cover

/-- After the region, entry (p, q) of the edge messages' array is the two-layer perceptron of row p of the region's
    first array, at output coordinate q. -/
theorem edge_array (V : (c : Dev nD) → (b : Ref sig .tc) → Buf (Elt Ideal) ((c : Thread nD τ).loc b)) (c : Dev nD)
    (p : Fin 1600000) (q : Fin 128) :
    (dat0 (F := Ideal) V c).arrAt 5 cfg0.N (ix2 p q)
      = Cert.Spec.mlp2 (fun (r : Fin 1600000) (l : Fin 15) => V c main_v15 (ix2 r l))
          (fun (l : Fin 15) (k : Fin 128) => V c main_v16 (ix2 l k)) (fun k : Fin 128 => V c main_arg3 (ix1 k))
          (fun (k : Fin 128) (o : Fin 128) => V c main_v17 (ix2 k o)) (fun o : Fin 128 => V c main_arg5 (ix1 o)) p q := by
  rw [edge_final V c]
  rfl

end Cert.KernelIdeal.Hand

end
-- ==== Proof.ReadoutPayload.lean ====
/-
  The readout perceptron's stored column read at an index.

  The same reading as the edge perceptron's tile, at other sizes: over the extended reals the hidden layer is the
  rectified product plus its bias row, the second product into zero is the contraction over the hidden coordinate, and
  the one-entry bias cast to one row and laid along every row reads that entry. So entry (p, q) of the column the kernel
  stores is
      (∑ k, max ((∑ l, x p l * w1 l k) + b1 k) 0 * w2 k q) + b2 q,
  the two-layer perceptron of the specification at row p and output coordinate q. No format change follows the second
  layer here.
-/
import proofs.«122574_j16913581212025_1_alg».proof.Proof.Spec
import proofs.«122574_j16913581212025_1_alg».proof.Proof.LibPlainProduct
import proofs.«122574_j16913581212025_1_alg».proof.Proof.Gen.KernelIdeal.Skeleton
import proofs.«122574_j16913581212025_1_alg».proof.Proof.EdgePayload
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx

open scoped BigOperators

open Cert.KernelIdeal Cert.KernelIdeal.Gen in
/-- Entry (p, q) of the column the readout kernel stores is the two-layer perceptron of the specification there. -/
theorem readout_payload_apply (v0 : Vec Ideal Cert.KernelIdeal.S256x128 .bf16) (v2 : Vec Ideal Cert.KernelIdeal.S128x128 .bf16)
    (v4 : Vec Ideal Cert.KernelIdeal.S128x1 .bf16) (v7 : Vec Ideal Cert.KernelIdeal.S128 .f32) (v15 : Vec Ideal Cert.KernelIdeal.S1 .f32)
    (p : Fin 256) (q : Fin 1) :
    Cert.KernelIdeal.Gen.k1_pay1 (F := Ideal) v0 v2 v4 v7 v15 (ix2 p q)
      = Cert.Spec.mlp2 (fun (r : Fin 256) (l : Fin 128) => v0 (ix2 r l)) (fun (l : Fin 128) (k : Fin 128) => v2 (ix2 l k))
          (fun k : Fin 128 => v7 (ix1 k)) (fun (k : Fin 128) (o : Fin 1) => v4 (ix2 k o)) (fun o : Fin 1 => v15 (ix1 o)) p q := by
  unfold Cert.KernelIdeal.Gen.k1_pay1 Cert.Spec.mlp2
  simp only [shapeCast_self]
  rw [addf_apply]
  refine congrArg₂ (· + ·) ?_ (bias_rows_apply v15 _ _ p q)
  refine (Cert.PlainProduct.matmul_plain_apply (φ₁ := .bf16) (φ₂ := .bf16)
    dot_S256x128_S128x1_S256x1_1_0_0_1_n_n rfl none _ v4 p q).trans ?_
  exact Finset.sum_congr rfl fun k _ => congrArg (· * v4 (ix2 k q))
    (hidden_apply dot_S256x128_S128x128_S256x128_1_0_0_1_n_n rfl v0 v2 v7 _ _ _ p k)

end Cert.Bridge

end
-- ==== Proof.KIReadoutArray.lean ====
/-
  From the read-out perceptron's block to its array.

  The region has one point, at which every window's block is its whole array. So what the point writes back is ONE
  function of the five arrays the region is entered with, the two-layer perceptron of the specification row by row,
  read through a block that is the whole array; the one block covers the array, and the array ends holding that function.
-/
import proofs.«122574_j16913581212025_1_alg».proof.Proof.KIRegion1
import proofs.«122574_j16913581212025_1_alg».proof.Proof.ReadoutPayload
import proofs.«122574_j16913581212025_1_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The read-out as one function of the five arrays: the perceptron of the specification at the index's row and
    output coordinate. -/
def readoutG (a0 : S256x128.Idx → EReal) (a1 : S128x128.Idx → EReal) (a2 : S128.Idx → EReal)
    (a3 : S128x1.Idx → EReal) (a4 : S1.Idx → EReal) : S256x1.Idx → EReal :=
  fun i => Cert.Spec.mlp2 (fun (r : Fin 256) (l : Fin 128) => a0 (ix2 r l)) (fun (l : Fin 128) (k : Fin 128) => a1 (ix2 l k))
    (fun k : Fin 128 => a2 (ix1 k)) (fun (k : Fin 128) (o : Fin 1) => a3 (ix2 k o)) (fun o : Fin 1 => a4 (ix1 o))
    (⟨(i 0).val, idx2_lt0 i⟩ : Fin 256) (⟨(i 1).val, idx2_lt1 i⟩ : Fin 1)

private theorem zeros2 : (![0, 0] : Fin 2 → Nat) = fun _ => 0 := funext fun a => by fin_cases a <;> rfl
private theorem zeros1 : (![0] : Fin 1 → Nat) = fun _ => 0 := funext fun a => by fin_cases a <;> rfl

/-- The column stored from operand blocks that are the five arrays whole is, at an index, the function of the arrays
    at the same index. -/
private theorem readout_point (x0 : Vec Ideal S256x128 .bf16) (x1 : Vec Ideal S128x128 .bf16) (x2 : Vec Ideal S128 .f32)
    (x3 : Vec Ideal S128x1 .bf16) (x4 : Vec Ideal S1 .f32)
    (a0 : S256x128.Idx → EReal) (a1 : S128x128.Idx → EReal) (a2 : S128.Idx → EReal)
    (a3 : S128x1.Idx → EReal) (a4 : S1.Idx → EReal)
    (h0 : ∀ (p : Fin 256) (l : Fin 128), x0 (ix2 p l) = a0 (ix2 p l))
    (h1 : ∀ (l : Fin 128) (k : Fin 128), x1 (ix2 l k) = a1 (ix2 l k))
    (h2 : ∀ k : Fin 128, x2 (ix1 k) = a2 (ix1 k))
    (h3 : ∀ (k : Fin 128) (o : Fin 1), x3 (ix2 k o) = a3 (ix2 k o))
    (h4 : ∀ o : Fin 1, x4 (ix1 o) = a4 (ix1 o))
    (y : S256x1.Idx) (i : S256x1.Idx) (hi0 : (i 0).val = (y 0).val) (hi1 : (i 1).val = (y 1).val) :
    k1_pay1 (F := Ideal) x0 x1 x3 x2 x4 y = readoutG a0 a1 a2 a3 a4 i := by
  obtain ⟨p, q, rfl⟩ : ∃ (p : Fin 256) (q : Fin 1), y = ix2 p q := ⟨y 0, y 1, eq_ix2 y⟩
  have hp : (⟨(i 0).val, idx2_lt0 i⟩ : Fin 256) = p := Fin.ext hi0
  have hq : (⟨(i 1).val, idx2_lt1 i⟩ : Fin 1) = q := Fin.ext hi1
  rw [Cert.Bridge.readout_payload_apply]
  unfold readoutG Cert.Spec.mlp2
  rw [hp, hq]
  simp only [h0, h1, h2, h3, h4]

variable (V : (c : Dev nD) → (b : Ref sig .tc) → Buf (Elt Ideal) ((c : Thread nD τ).loc b))

/-- The windows' block indices at the region's point: every block sits at the origin. -/
private theorem readout_index : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0 :=
  (by decide +kernel : ∀ t : Fin grid1.N, _)

/-- The rows' block is the first array. -/
private theorem readout_rows_apply (c : Dev nD) (t : Fin cfg1.N) (p : Fin 256) (l : Fin 128) :
    (iblk1 V c 0 t : Vec Ideal S256x128 .bf16) (ix2 p l) = (V c main_v44 : S256x128.Idx → EReal) (ix2 p l) := by
  obtain ⟨e0, e1, -⟩ := readout_index t
  unfold iblk1
  rw [View.read_apply]
  show (V c main_v44 : S256x128.Idx → EReal) _ = (V c main_v44 : S256x128.Idx → EReal) _
  congr 1
  funext a
  apply Fin.ext
  match a with
  | ⟨0, _⟩ => show win1_0.index t (0 : Fin 2) * 256 + 1 * p.val = p.val; rw [e0]; omega
  | ⟨1, _⟩ => show win1_0.index t (1 : Fin 2) * 128 + 1 * l.val = l.val; rw [e1]; omega

/-- The first weights' block is the second array. -/
private theorem readout_w1_apply (c : Dev nD) (t : Fin cfg1.N) (l : Fin 128) (k : Fin 128) :
    (iblk1 V c 1 t : Vec Ideal S128x128 .bf16) (ix2 l k) = (V c main_v45 : S128x128.Idx → EReal) (ix2 l k) := by
  obtain ⟨-, -, e0, e1, -⟩ := readout_index t
  unfold iblk1
  rw [View.read_apply]
  show (V c main_v45 : S128x128.Idx → EReal) _ = (V c main_v45 : S128x128.Idx → EReal) _
  congr 1
  funext a
  apply Fin.ext
  match a with
  | ⟨0, _⟩ => show win1_1.index t (0 : Fin 2) * 128 + 1 * l.val = l.val; rw [e0]; omega
  | ⟨1, _⟩ => show win1_1.index t (1 : Fin 2) * 128 + 1 * k.val = k.val; rw [e1]; omega

/-- The first bias's block is the third array. -/
private theorem readout_b1_apply (c : Dev nD) (t : Fin cfg1.N) (k : Fin 128) :
    (iblk1 V c 2 t : Vec Ideal S128 .f32) (ix1 k) = (V c main_arg7 : S128.Idx → EReal) (ix1 k) := by
  obtain ⟨-, -, -, -, e0, -⟩ := readout_index t
  unfold iblk1
  rw [View.read_apply]
  show (V c main_arg7 : S128.Idx → EReal) _ = (V c main_arg7 : S128.Idx → EReal) _
  congr 1
  funext a
  apply Fin.ext
  match a with
  | ⟨0, _⟩ => show win1_2.index t (0 : Fin 1) * 128 + 1 * k.val = k.val; rw [e0]; omega

/-- The second weights' block is the fourth array. -/
private theorem readout_w2_apply (c : Dev nD) (t : Fin cfg1.N) (k : Fin 128) (o : Fin 1) :
    (iblk1 V c 3 t : Vec Ideal S128x1 .bf16) (ix2 k o) = (V c main_v46 : S128x1.Idx → EReal) (ix2 k o) := by
  obtain ⟨-, -, -, -, -, e0, e1, -⟩ := readout_index t
  unfold iblk1
  rw [View.read_apply]
  show (V c main_v46 : S128x1.Idx → EReal) _ = (V c main_v46 : S128x1.Idx → EReal) _
  congr 1
  funext a
  apply Fin.ext
  match a with
  | ⟨0, _⟩ => show win1_3.index t (0 : Fin 2) * 128 + 1 * k.val = k.val; rw [e0]; omega
  | ⟨1, _⟩ => show win1_3.index t (1 : Fin 2) * 1 + 1 * o.val = o.val; rw [e1]; omega

/-- The second bias's block is the fifth array. -/
private theorem readout_b2_apply (c : Dev nD) (t : Fin cfg1.N) (o : Fin 1) :
    (iblk1 V c 4 t : Vec Ideal S1 .f32) (ix1 o) = (V c main_arg9 : S1.Idx → EReal) (ix1 o) := by
  obtain ⟨-, -, -, -, -, -, -, e0, -⟩ := readout_index t
  unfold iblk1
  rw [View.read_apply]
  show (V c main_arg9 : S1.Idx → EReal) _ = (V c main_arg9 : S1.Idx → EReal) _
  congr 1
  funext a
  apply Fin.ext
  match a with
  | ⟨0, _⟩ => show win1_4.index t (0 : Fin 1) * 1 + 1 * o.val = o.val; rw [e0]; omega

/-- What the region's point writes back is its block of the function of the arrays. -/
theorem readout_flushed (c : Dev nD) (t : Fin cfg1.N) :
    (dat1 (F := Ideal) V c).flushed 5 t = ((cfg1.win 5).blk t).view.read (Elt Ideal)
      (readoutG (V c main_v44) (V c main_v45) (V c main_arg7) (V c main_v46) (V c main_arg9)) := by
  show (cfg1.win 5).cut (grid1.coords t) ((dat1 (F := Ideal) V c).after 5 t) = _
  rw [after1_5]
  unfold out1_5
  rw [View.canon_unit_zero zeros2]
  simp only [View.ld_unit_zero (S := S256x128) zeros2, View.ld_unit_zero (S := S128x128) zeros2,
    View.ld_unit_zero (S := S128) zeros1, View.ld_unit_zero (S := S128x1) zeros2, View.ld_unit_zero (S := S1) zeros1]
  obtain ⟨-, -, -, -, -, -, -, -, e0, e1⟩ := readout_index t
  funext j
  refine readout_point (iblk1 V c 0 t) (iblk1 V c 1 t) (iblk1 V c 2 t) (iblk1 V c 3 t) (iblk1 V c 4 t)
    (V c main_v44) (V c main_v45) (V c main_arg7) (V c main_v46) (V c main_arg9)
    (fun p l => readout_rows_apply V c t p l) (fun l k => readout_w1_apply V c t l k)
    (fun k => readout_b1_apply V c t k) (fun k o => readout_w2_apply V c t k o) (fun o => readout_b2_apply V c t o)
    ((cfg1.win 5).xinj (grid1.coords t) j) (((cfg1.win 5).blk t).view.emb j) ?_ ?_
  · show win1_5.index t (0 : Fin 2) * 256 + 1 * (j 0).val = (j 0).val
    rw [e0]; omega
  · show win1_5.index t (1 : Fin 2) * 1 + 1 * (j 1).val = (j 1).val
    rw [e1]; omega

/-- An index of the array is in the point's block iff each coordinate is in the block's range on its axis. -/
private theorem readout_mem_blk (t : Fin cfg1.N) (i : S256x1.Idx) :
    i ∈ ((cfg1.win 5).blk t).view.set ↔ ∀ a : Fin 2, win1_5.index t a * S256x1.size a ≤ (i a).val
      ∧ (i a).val < win1_5.index t a * S256x1.size a + S256x1.size a := by
  show i ∈ ((View.whole main_v47).slice (win1_5.rect t)).set ↔ _
  rw [View.set_slice_whole, Rect.mem_set_unit]
  exact Iff.rfl

/-- Every index of the array lies in the one point's block, which is written back. -/
theorem readout_cover (i : S256x1.Idx) :
    ∃ t : Fin cfg1.N, (cfg1.win 5).flush t = true ∧ i ∈ ((cfg1.win 5).blk t).view.set := by
  have h0 : (i 0).val < 256 := (i 0).isLt
  have h1 : (i 1).val < 1 := (i 1).isLt
  obtain ⟨-, -, -, -, -, -, -, -, e0, e1⟩ := readout_index t1_0
  refine ⟨t1_0, flush1_5 t1_0, ?_⟩
  rw [readout_mem_blk]
  intro a
  match a with
  | ⟨0, _⟩ =>
    show win1_5.index t1_0 (0 : Fin 2) * 256 ≤ (i 0).val ∧ (i 0).val < win1_5.index t1_0 (0 : Fin 2) * 256 + 256
    rw [e0]; omega
  | ⟨1, _⟩ =>
    show win1_5.index t1_0 (1 : Fin 2) * 1 ≤ (i 1).val ∧ (i 1).val < win1_5.index t1_0 (1 : Fin 2) * 1 + 1
    rw [e1]; omega

/-- After the region the read-out's array holds the function of the arrays. -/
theorem readout_final (c : Dev nD) : (dat1 (F := Ideal) V c).arrAt 5 cfg1.N
    = readoutG (V c main_v44) (V c main_v45) (V c main_arg7) (V c main_v46) (V c main_arg9) :=
  (dat1 (F := Ideal) V c).arrAt_eq_of_cover 5
    (readoutG (V c main_v44) (V c main_v45) (V c main_arg7) (V c main_v46) (V c main_arg9))
    (fun t _ => readout_flushed V c t) readout_cover

/-- After the region, entry (p, q) of the read-out's array is the two-layer perceptron of row p of the region's first
    array, at output coordinate q. -/
theorem readout_array (V : (c : Dev nD) → (b : Ref sig .tc) → Buf (Elt Ideal) ((c : Thread nD τ).loc b)) (c : Dev nD)
    (p : Fin 256) (q : Fin 1) :
    (dat1 (F := Ideal) V c).arrAt 5 cfg1.N (ix2 p q)
      = Cert.Spec.mlp2 (fun (r : Fin 256) (l : Fin 128) => V c main_v44 (ix2 r l))
          (fun (l : Fin 128) (k : Fin 128) => V c main_v45 (ix2 l k)) (fun k : Fin 128 => V c main_arg7 (ix1 k))
          (fun (k : Fin 128) (o : Fin 1) => V c main_v46 (ix2 k o)) (fun o : Fin 1 => V c main_arg9 (ix1 o)) p q := by
  rw [readout_final V c]
  rfl

end Cert.KernelIdeal.Hand

end
-- ==== Proof.KIRefMatch.lean ====
/-
  The kernel program's two host chains are the reference's.

  Both programs join the edge input in the same way (negative indices wrapped around by the table's height, the node
  features gathered at the source and at the destination indices, joined with the edge features along the columns) and
  take the same two segment means (a scatter-add divided by the count clamped below by one, twice). Each program declares
  its own copies of the shapes and of the operation records; the copies are the same literals, so the two spellings of
  each chain are one term.
-/
import proofs.«122574_j16913581212025_1_alg».proof.Proof.KIHost
import proofs.«122574_j16913581212025_1_alg».proof.Proof.RefStages

noncomputable section

namespace Cert.Bridge

open Idealize.ShloMosaic Idealize.ShloMosaic.TcCoe Idealize.SL.Sem Idealize.ShloMosaic.StableHlo

set_option maxRecDepth 65536

/-- The kernel program's two segment means are the reference's: the same chain over separately declared, identical
    shapes and operation records. -/
theorem segmentMeans_eq (y : (⟨Cert.ReferenceIdeal.S1600000x128, .f32⟩ : BufTy).Contents (Elt Ideal))
    (x11 : (⟨Cert.ReferenceIdeal.S1600000, .i32⟩ : BufTy).Contents (Elt Ideal))
    (x12 : (⟨Cert.ReferenceIdeal.S100000, .i32⟩ : BufTy).Contents (Elt Ideal)) :
    Cert.KernelIdeal.Hand.segmentMeans y x11 x12 = Cert.Bridge.midR y x11 x12 := by
  unfold Cert.KernelIdeal.Hand.segmentMeans Cert.Bridge.midR
  rfl

/-- The kernel program's edge input is the reference's joined edge input: the same chain (wrapped indices, two gathers
    of the node features, the join with the edge features) over separately declared, identical shapes and records. -/
theorem edgeInput_eq (x0 : (⟨Cert.ReferenceIdeal.S100000x6, .f32⟩ : BufTy).Contents (Elt Ideal))
    (x1 : (⟨Cert.ReferenceIdeal.S1600000x3, .f32⟩ : BufTy).Contents (Elt Ideal))
    (x10 x11 : (⟨Cert.ReferenceIdeal.S1600000, .i32⟩ : BufTy).Contents (Elt Ideal)) :
    Cert.KernelIdeal.Hand.edgeInput x0 x1 x10 x11 = Cert.ReferenceIdeal.Read.val_main_v14 (F := Ideal) x0 x1 x10 x11 := by
  unfold Cert.KernelIdeal.Hand.edgeInput Cert.KernelIdeal.Hand.wrapIdx Cert.ReferenceIdeal.Read.val_main_v14
    Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_c_2
    Cert.ReferenceIdeal.Read.val_main_v8 Cert.ReferenceIdeal.Read.val_main_v7 Cert.ReferenceIdeal.Read.val_main_c_1
    Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_c_0
    Cert.ReferenceIdeal.Read.val_main_v1 Cert.ReferenceIdeal.Read.val_main_v0 Cert.ReferenceIdeal.Read.val_main_c
  rfl

end Cert.Bridge

end
-- ==== Proof.KIValue.lean ====
/-
  What the idealized kernel program ends with, as the reference's own result stage of the launch memory's arguments.
  Walking back from the result: it is the readout region's output reshaped; that output is, entry by entry, the readout
  perceptron of the graph means (the payload at an index, block by block) — the same expression the reference's readout
  stage is; the graph means are the two segment means of the edge messages on both sides, the same chain of host
  operations; the edge messages are, entry by entry, the edge perceptron of the edge input on both sides; and the edge
  input is the same chain of gathers and a join. A change of float format is the identity on the extended reals, so the
  kernel's rounded operands are the arguments themselves.
-/
import proofs.«122574_j16913581212025_1_alg».proof.Proof.KIRun
import proofs.«122574_j16913581212025_1_alg».proof.Proof.KIHost
import proofs.«122574_j16913581212025_1_alg».proof.Proof.RefStages
import proofs.«122574_j16913581212025_1_alg».proof.Proof.Spec
import proofs.«122574_j16913581212025_1_alg».proof.Proof.KIEdgeArray
import proofs.«122574_j16913581212025_1_alg».proof.Proof.KIReadoutArray
import proofs.«122574_j16913581212025_1_alg».proof.Proof.KIRefMatch
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

open Cert.ReferenceIdeal.Read (val_main_v14 val_main_v23 val_main_v47 val_main_v56 val_main_v57)

/-- The perceptron expression depends only on the entries of its five operands. -/
theorem mlp2_congr {R I H O : Type} [Fintype I] [Fintype H]
    {x x' : R → I → EReal} {w1 w1' : I → H → EReal} {b1 b1' : H → EReal} {w2 w2' : H → O → EReal} {b2 b2' : O → EReal}
    (hx : ∀ r l, x r l = x' r l) (hw1 : ∀ l k, w1 l k = w1' l k) (hb1 : ∀ k, b1 k = b1' k) (hw2 : ∀ k o, w2 k o = w2' k o)
    (hb2 : ∀ o, b2 o = b2' o) (r : R) (o : O) : Cert.Spec.mlp2 x w1 b1 w2 b2 r o = Cert.Spec.mlp2 x' w1' b1' w2' b2' r o := by
  unfold Cert.Spec.mlp2
  simp only [hx, hw1, hb1, hw2, hb2]

/-- Over the extended reals a change to a shorter float format is the identity, -/
theorem truncf_id {s : Shape} {φ ψ : FTy} (a : FVec Ideal s φ) (h : ψ.bits < φ.bits) : (truncf ψ a h : FVec Ideal s ψ) = a := rfl
/-- and so is a change to a longer one. -/
theorem extf_id {s : Shape} {φ ψ : FTy} (a : FVec Ideal s φ) (h : φ.bits < ψ.bits) : (extf ψ a h : FVec Ideal s ψ) = a := rfl

variable (m : (ℓ : Loc nD τ sig) → Buf (Elt Ideal) ℓ) (ρ : Dev nD → PrngReg)

/-! ## The arguments, read where the regions and the host stretches find them -/

/-- Before the edge region an argument still holds its launch contents. -/
theorem W1_arg (c : Dev nD) (a : Ref sig .tc) (h : a ∉ hostOps0_W) : W1 m ρ c (Proc.devRef .tc a) = m ((c : Thread nD τ).loc a) :=
  (StableHlo.after_of_writes_sub hostOps0 _ hostOps0_writes h).trans rfl
/-- After the edge region so does every buffer that is none of its arrays. -/
theorem W2_arg (c : Dev nD) (a : Ref sig .tc) (h : a ∉ hostOps0_W) (h' : ∀ w, Pipeline.arrRef spec0 w ≠ a) :
    W2 m ρ c (Proc.devRef .tc a) = m ((c : Thread nD τ).loc a) :=
  (W2_of_ne m ρ c a h').trans (W1_arg m ρ c a h)
/-- And before the readout region, when the second stretch does not write it either. -/
theorem W3_arg (c : Dev nD) (a : Ref sig .tc) (h : a ∉ hostOps0_W) (h' : ∀ w, Pipeline.arrRef spec0 w ≠ a) (h'' : a ∉ hostOps1_W) :
    W3 m ρ c (Proc.devRef .tc a) = m ((c : Thread nD τ).loc a) :=
  (StableHlo.after_of_writes_sub hostOps1 _ hostOps1_writes h'').trans (W2_arg m ρ c a h h')

/-! ## The edge messages -/

/-- The edge region leaves, in its output array, the reference's edge messages of the launch arguments. -/
theorem edge_messages (c : Dev nD) :
    (W2 m ρ c (Proc.devRef .tc main_v18) : FVec Ideal S1600000x128 .bf16)
      = val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) := by
  funext j
  obtain ⟨p, q, rfl⟩ : ∃ (p : Fin 1600000) (q : Fin 128), j = ix2 p q := ⟨j 0, j 1, eq_ix2 j⟩
  rw [Cert.Bridge.ref_edge_apply]
  refine ((congrFun (W2_arr m ρ c 5) (ix2 p q)).trans (edge_array (WV1 m ρ) c p q)).trans ?_
  have e15 : (WV1 m ρ c main_v15 : FVec Ideal S1600000x15 .bf16)
      = val_main_v14 (F := Ideal) (m ((c : Thread nD τ).loc main_arg0)) (m ((c : Thread nD τ).loc main_arg1)) (m ((c : Thread nD τ).loc main_arg10)) (m ((c : Thread nD τ).loc main_arg11)) :=
    (read0_v15 (W0 m ρ c)).trans (Cert.Bridge.edgeInput_eq _ _ _ _)
  have e16 : (WV1 m ρ c main_v16 : FVec Ideal S15x128 .bf16) = m ((c : Thread nD τ).loc main_arg2) := read0_v16 (W0 m ρ c)
  have e17 : (WV1 m ρ c main_v17 : FVec Ideal S128x128 .bf16) = m ((c : Thread nD τ).loc main_arg4) := read0_v17 (W0 m ρ c)
  have e3 : (WV1 m ρ c main_arg3 : FVec Ideal S128 .f32) = m ((c : Thread nD τ).loc main_arg3) := W1_arg m ρ c main_arg3 (by decide)
  have e5 : (WV1 m ρ c main_arg5 : FVec Ideal S128 .f32) = m ((c : Thread nD τ).loc main_arg5) := W1_arg m ρ c main_arg5 (by decide)
  exact mlp2_congr (fun r l => congrFun e15 (ix2 r l)) (fun l k => congrFun e16 (ix2 l k)) (fun k => congrFun e3 (ix1 k))
    (fun k o => congrFun e17 (ix2 k o)) (fun o => congrFun e5 (ix1 o)) p q

/-! ## The graph means -/

/-- Before the readout region the first operand holds the reference's graph means of the launch arguments. -/
theorem graph_means (c : Dev nD) :
    (W3 m ρ c (Proc.devRef .tc main_v44) : FVec Ideal S256x128 .bf16)
      = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) := by
  rw [Cert.Bridge.ref_mid, ← edge_messages m ρ c, ← Cert.Bridge.segmentMeans_eq]
  refine (read1_v44 (W2 m ρ c)).trans ?_
  rw [truncf_id, extf_id, W2_arg m ρ c main_arg11 (by decide) (by decide), W2_arg m ρ c main_arg12 (by decide) (by decide)]

/-! ## The result -/

/-- The readout region leaves, in its output array, the reference's readout of the launch arguments. -/
theorem readout_column (c : Dev nD) :
    (W4 m ρ c (Proc.devRef .tc main_v47) : FVec Ideal S256x1 .f32)
      = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext j
  obtain ⟨p, q, rfl⟩ : ∃ (p : Fin 256) (q : Fin 1), j = ix2 p q := ⟨j 0, j 1, eq_ix2 j⟩
  rw [Cert.Bridge.ref_readout_apply]
  refine ((congrFun (W4_arr m ρ c 5) (ix2 p q)).trans (readout_array (WV3 m ρ) c p q)).trans ?_
  have e44 := graph_means m ρ c
  have e45 : (WV3 m ρ c main_v45 : FVec Ideal S128x128 .bf16) = m ((c : Thread nD τ).loc main_arg6) :=
    (read1_v45 (W2 m ρ c)).trans (W2_arg m ρ c main_arg6 (by decide) (by decide))
  have e46 : (WV3 m ρ c main_v46 : FVec Ideal S128x1 .bf16) = m ((c : Thread nD τ).loc main_arg8) :=
    (read1_v46 (W2 m ρ c)).trans (W2_arg m ρ c main_arg8 (by decide) (by decide))
  have e7 : (WV3 m ρ c main_arg7 : FVec Ideal S128 .f32) = m ((c : Thread nD τ).loc main_arg7) :=
    W3_arg m ρ c main_arg7 (by decide) (by decide) (by decide)
  have e9 : (WV3 m ρ c main_arg9 : FVec Ideal S1 .f32) = m ((c : Thread nD τ).loc main_arg9) :=
    W3_arg m ρ c main_arg9 (by decide) (by decide) (by decide)
  exact mlp2_congr (fun r l => congrFun e44 (ix2 r l)) (fun l k => congrFun e45 (ix2 l k)) (fun k => congrFun e7 (ix1 k))
    (fun k o => congrFun e46 (ix2 k o)) (fun o => congrFun e9 (ix1 o)) p q

/-- THE VALUE: the program's result buffer ends at the reference's result stage of the launch arguments. -/
theorem result_eq (c : Dev nD) :
    (W5 m ρ c (Proc.devRef .tc main_v48) : FVec Ideal S256 .f32)
      = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [Cert.Bridge.ref_out, ← readout_column m ρ c]
  exact read2_v48 (W4 m ρ c)

end Cert.KernelIdeal.Hand

end
-- ==== Proof.lean ====
/-
  A message-passing layer on a graph of 100000 nodes and 1600000 edges, against its plain reference. Both programs
  compute, for every edge, a two-layer perceptron (with a rectifier between the layers) of the source node's
  features, the destination node's features and the edge's own; average the edge messages into their destination nodes
  and the node values into their graphs; and apply a second two-layer perceptron to each graph's mean, giving one
  number per graph. The kernel program runs the two perceptrons as tiled kernels — the first over fifty tiles of 32000
  edges, the second in one tile — on operands rounded to a shorter float format, and everything else as the same host
  operations as the reference.

  Over the extended reals a change of float format is the identity, a kernel's matrix product into a zero accumulator and
  the host's product are the same finite sum, and a tile of rows of a row-by-row expression is that expression on the
  tile's rows. So the two programs compute the same expression entry by entry, and no algebraic law is needed beyond
  that: the precondition (finite inputs) is never opened.

  The three frame claims: each kernel program is host operations, a region, host operations, a region, a reshape; each
  region's body reads its operand blocks whole and overwrites its output block, so the pipeline's obligations hold at
  every grid point, the program terminates without a fault, and no argument array is written. The reference is host
  operations only. The idealization rewrote no operation, so there is nothing to preserve beyond the text itself.
-/
import proofs.«122574_j16913581212025_1_alg».proof.Defs
import proofs.«122574_j16913581212025_1_alg».proof.Proof.Gen.Kernel
import proofs.«122574_j16913581212025_1_alg».proof.Proof.Gen.KernelIdeal
import proofs.«122574_j16913581212025_1_alg».proof.Proof.Gen.ReferenceIdeal
import proofs.«122574_j16913581212025_1_alg».proof.Proof.Gen.Pre_finite_inputs
import proofs.«122574_j16913581212025_1_alg».proof.Proof.Gen.ReferenceIdeal.Run
import proofs.«122574_j16913581212025_1_alg».proof.Proof.Gen.ReferenceIdeal.Read
import proofs.«122574_j16913581212025_1_alg».proof.Proof.KRun
import proofs.«122574_j16913581212025_1_alg».proof.Proof.KIRun
import proofs.«122574_j16913581212025_1_alg».proof.Proof.KIValue
import Idealize.ShloMosaic.Adequacy
import Idealize.ShloMosaic.Init

set_option maxRecDepth 16384

noncomputable section

namespace Cert.Proof

open Idealize.ShloMosaic Idealize.SL.Sem

/-- The word-level kernel program runs to the end, faults nowhere and leaves its argument arrays as launched. -/
theorem frame_k [Cert.Kernel.Facts] [Cert.Pre_finite_inputs.Facts] : Cert.frame_Kernel :=
  fun m ρ _ => Cert.Kernel.Hand.frame (F := Bits) m ρ

/-- So does its reading over the extended reals. -/
theorem frame_ki [Cert.KernelIdeal.Facts] [Cert.Pre_finite_inputs.Facts] : Cert.frame_KernelIdeal :=
  fun m ρ _ => Cert.KernelIdeal.Hand.frame (F := Ideal) m ρ

/-- The reference is host operations only: its run, with the result forgotten. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the reference's result stage of those arguments:
    the kernel program by walking its result back through the two regions, the reference by its own run. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v57 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ⟨?_, ?_⟩) (Cert.KernelIdeal.Hand.run_all (F := Ideal) m ρ)
    · exact (h c _ (Cert.KernelIdeal.Hand.mem_uc Cert.KernelIdeal.main_v48 (by decide))).trans (Cert.KernelIdeal.Hand.result_eq m ρ c)
    · exact ⟨(h c _ (Cert.KernelIdeal.Hand.mem_uc Cert.KernelIdeal.main_arg0 (by decide))).trans (Cert.KernelIdeal.Hand.W5_main_arg0 m ρ c),
        (h c _ (Cert.KernelIdeal.Hand.mem_uc Cert.KernelIdeal.main_arg1 (by decide))).trans (Cert.KernelIdeal.Hand.W5_main_arg1 m ρ c),
        (h c _ (Cert.KernelIdeal.Hand.mem_uc Cert.KernelIdeal.main_arg2 (by decide))).trans (Cert.KernelIdeal.Hand.W5_main_arg2 m ρ c),
        (h c _ (Cert.KernelIdeal.Hand.mem_uc Cert.KernelIdeal.main_arg3 (by decide))).trans (Cert.KernelIdeal.Hand.W5_main_arg3 m ρ c),
        (h c _ (Cert.KernelIdeal.Hand.mem_uc Cert.KernelIdeal.main_arg4 (by decide))).trans (Cert.KernelIdeal.Hand.W5_main_arg4 m ρ c),
        (h c _ (Cert.KernelIdeal.Hand.mem_uc Cert.KernelIdeal.main_arg5 (by decide))).trans (Cert.KernelIdeal.Hand.W5_main_arg5 m ρ c),
        (h c _ (Cert.KernelIdeal.Hand.mem_uc Cert.KernelIdeal.main_arg6 (by decide))).trans (Cert.KernelIdeal.Hand.W5_main_arg6 m ρ c),
        (h c _ (Cert.KernelIdeal.Hand.mem_uc Cert.KernelIdeal.main_arg7 (by decide))).trans (Cert.KernelIdeal.Hand.W5_main_arg7 m ρ c),
        (h c _ (Cert.KernelIdeal.Hand.mem_uc Cert.KernelIdeal.main_arg8 (by decide))).trans (Cert.KernelIdeal.Hand.W5_main_arg8 m ρ c),
        (h c _ (Cert.KernelIdeal.Hand.mem_uc Cert.KernelIdeal.main_arg9 (by decide))).trans (Cert.KernelIdeal.Hand.W5_main_arg9 m ρ c),
        (h c _ (Cert.KernelIdeal.Hand.mem_uc Cert.KernelIdeal.main_arg10 (by decide))).trans (Cert.KernelIdeal.Hand.W5_main_arg10 m ρ c),
        (h c _ (Cert.KernelIdeal.Hand.mem_uc Cert.KernelIdeal.main_arg11 (by decide))).trans (Cert.KernelIdeal.Hand.W5_main_arg11 m ρ c),
        (h c _ (Cert.KernelIdeal.Hand.mem_uc Cert.KernelIdeal.main_arg12 (by decide))).trans (Cert.KernelIdeal.Hand.W5_main_arg12 m ρ c)⟩
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12⟩ := hagree c
    rw [e0, e1, e2, e3, e4, e5, e6, e7, e8, e9, e10, e11, e12]
    exact Cert.ReferenceIdeal.Read.val_main_v57_eq (F := Ideal) _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
